-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S2000x128 : Shape := ⟨2, ![2000, 128]⟩
abbrev S1x128 : Shape := ⟨2, ![1, 128]⟩
abbrev S650000x128 : Shape := ⟨2, ![650000, 128]⟩
abbrev S50000x1 : Shape := ⟨2, ![50000, 1]⟩
abbrev S50000x64 : Shape := ⟨2, ![50000, 64]⟩
abbrev S2000x64 : Shape := ⟨2, ![2000, 64]⟩
abbrev S1x64 : Shape := ⟨2, ![1, 64]⟩
abbrev S2000 : Shape := ⟨1, ![2000]⟩
abbrev S2000x1 : Shape := ⟨2, ![2000, 1]⟩

abbrev nBuf : Space → Nat
  | .hbm => 68
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S50000, .i32⟩
  | .hbm, ⟨11, _⟩ => ⟨S1x600000, .i32⟩
  | .hbm, ⟨12, _⟩ => ⟨S600000, .i32⟩
  | .hbm, ⟨13, _⟩ => ⟨S650000, .i32⟩
  | .hbm, ⟨14, _⟩ => ⟨S1x600000, .i32⟩
  | .hbm, ⟨15, _⟩ => ⟨S600000, .i32⟩
  | .hbm, ⟨16, _⟩ => ⟨S650000, .i32⟩
  | .hbm, ⟨17, _⟩ => ⟨S_, .f32⟩
  | .hbm, ⟨18, _⟩ => ⟨S650000, .f32⟩
  | .hbm, ⟨19, _⟩ => ⟨S_, .f32⟩
  | .hbm, ⟨20, _⟩ => ⟨S50000, .f32⟩
  | .hbm, ⟨21, _⟩ => ⟨S650000x1, .i32⟩
  | .hbm, ⟨22, _⟩ => ⟨S50000, .f32⟩
  | .hbm, ⟨23, _⟩ => ⟨S50000x128, .f32⟩
  | .hbm, ⟨24, _⟩ => ⟨S50000x128, .f32⟩
  | .hbm, ⟨25, _⟩ => ⟨S_, .i32⟩
  | .hbm, ⟨26, _⟩ => ⟨S650000, .i32⟩
  | .hbm, ⟨27, _⟩ => ⟨S650000, .i1⟩
  | .hbm, ⟨28, _⟩ => ⟨S_, .i32⟩
  | .hbm, ⟨29, _⟩ => ⟨S650000, .i32⟩
  | .hbm, ⟨30, _⟩ => ⟨S650000, .i32⟩
  | .hbm, ⟨31, _⟩ => ⟨S650000, .i32⟩
  | .hbm, ⟨32, _⟩ => ⟨S650000x1, .i32⟩
  | .hbm, ⟨33, _⟩ => ⟨S650000x128, .f32⟩
  | .hbm, ⟨34, _⟩ => ⟨S_, .f32⟩
  | .hbm, ⟨35, _⟩ => ⟨S50000x128, .f32⟩
  | .hbm, ⟨36, _⟩ => ⟨S650000x1, .i32⟩
  | .hbm, ⟨37, _⟩ => ⟨S50000x128, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S_, .f32⟩
  | .hbm, ⟨57, _⟩ => ⟨S50000x128, .f32⟩
  | .hbm, ⟨58, _⟩ => ⟨S650000x1, .i32⟩
  | .hbm, ⟨59, _⟩ => ⟨S50000x128, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x128, .f32⟩
  | .local _ .vmem, ⟨4, _⟩ => ⟨S128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x64, .f32⟩
  | .local _ .vmem, ⟨33, _⟩ => ⟨S64, .f32⟩
  | .local _ .vmem, ⟨34, _⟩ => ⟨S2000x64, .f32⟩
  | .local _ .vmem, ⟨35, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28_0 : Ref sig .tc := ⟨.hbm, 45, rfl⟩
abbrev main_v28_1 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  scatter_S50000_S650000x1_S650000_n_0_0_1_wf : ScatterDims.WF S50000 S650000x1 S650000 [] [0] [0] 1
  dot_S2000x128_S128x128_S2000x128_1_0_0_1_n_n_wf : DotDims.WF S2000x128 S128x128 S2000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S50000x64.size a
  hwx4_3 : ∀ i : grid4.Coords, EltTy.bits .f32 = 32 ∨ (Rect.block (s := S50000x64) S2000x64.size (cc4_transform_3 i) (hinb4_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11_1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v27) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28_0) S2000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v28_1) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v43) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28_1) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v44) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v45) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S50000, .i32⟩
  | .hbm, ⟨11, _⟩ => ⟨S1x600000, .i32⟩
  | .hbm, ⟨12, _⟩ => ⟨S600000, .i32⟩
  | .hbm, ⟨13, _⟩ => ⟨S650000, .i32⟩
  | .hbm, ⟨14, _⟩ => ⟨S1x600000, .i32⟩
  | .hbm, ⟨15, _⟩ => ⟨S600000, .i32⟩
  | .hbm, ⟨16, _⟩ => ⟨S650000, .i32⟩
  | .hbm, ⟨17, _⟩ => ⟨S50000x128, .f32⟩
  | .hbm, ⟨18, _⟩ => ⟨S_, .i32⟩
  | .hbm, ⟨19, _⟩ => ⟨S650000, .i32⟩
  | .hbm, ⟨20, _⟩ => ⟨S650000, .i1⟩
  | .hbm, ⟨21, _⟩ => ⟨S_, .i32⟩
  | .hbm, ⟨22, _⟩ => ⟨S650000, .i32⟩
  | .hbm, ⟨23, _⟩ => ⟨S650000, .i32⟩
  | .hbm, ⟨24, _⟩ => ⟨S650000, .i32⟩
  | .hbm, ⟨25, _⟩ => ⟨S650000x1, .i32⟩
  | .hbm, ⟨26, _⟩ => ⟨S650000x128, .f32⟩
  | .hbm, ⟨27, _⟩ => ⟨S_, .f32⟩
  | .hbm, ⟨28, _⟩ => ⟨S50000x128, .f32⟩
  | .hbm, ⟨29, _⟩ => ⟨S650000x1, .i32⟩
  | .hbm, ⟨30, _⟩ => ⟨S50000x128, .f32⟩
  | .hbm, ⟨31, _⟩ => ⟨S_, .f32⟩
  | .hbm, ⟨32, _⟩ => ⟨S650000, .f32⟩
  | .hbm, ⟨33, _⟩ => ⟨S_, .f32⟩
  | .hbm, ⟨34, _⟩ => ⟨S50000, .f32⟩
  | .hbm, ⟨35, _⟩ => ⟨S650000x1, .i32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S650000, .i32⟩
  | .hbm, ⟨54, _⟩ => ⟨S650000, .i1⟩
  | .hbm, ⟨55, _⟩ => ⟨S_, .i32⟩
  | .hbm, ⟨56, _⟩ => ⟨S650000, .i32⟩
  | .hbm, ⟨57, _⟩ => ⟨S650000, .i32⟩
  | .hbm, ⟨58, _⟩ => ⟨S650000, .i32⟩
  | .hbm, ⟨59, _⟩ => ⟨S650000x1, .i32⟩
  | .hbm, ⟨60, _⟩ => ⟨S650000x128, .f32⟩
  | .hbm, ⟨61, _⟩ => ⟨S_, .f32⟩
  | .hbm, ⟨62, _⟩ => ⟨S50000x128, .f32⟩
  | .hbm, ⟨63, _⟩ => ⟨S650000x1, .i32⟩
  | .hbm, ⟨64, _⟩ => ⟨S50000x128, .f32⟩
  | .hbm, ⟨65, _⟩ => ⟨S_, .f32⟩
  | .hbm, ⟨66, _⟩ => ⟨S650000, .f32⟩
  | .hbm, ⟨67, _⟩ => ⟨S_, .f32⟩
  | .hbm, ⟨68, _⟩ => ⟨S50000, .f32⟩
  | .hbm, ⟨69, _⟩ => ⟨S650000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x64, .f32⟩
  | .hbm, ⟨96, _⟩ => ⟨S50000x64, .f32⟩
  | .hbm, ⟨97, _⟩ => ⟨S50000x64, .f32⟩
  | .hbm, ⟨98, _⟩ => ⟨S_, .f32⟩
  | .hbm, ⟨99, _⟩ => ⟨S50000, .f32⟩
  | .hbm, ⟨100, _⟩ => ⟨S50000x1, .f32⟩
  | .hbm, ⟨101, _⟩ => ⟨S50000x1, .f32⟩
  | .hbm, ⟨102, _⟩ => ⟨S50000x64, .f32⟩
  | .hbm, ⟨103, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_cst : Ref sig .tc := ⟨.hbm, 48, rfl⟩
abbrev main_call0_v0 : Ref sig .tc := ⟨.hbm, 49, rfl⟩
abbrev main_v32 : Ref sig .tc := ⟨.hbm, 50, rfl⟩
abbrev main_v33 : Ref sig .tc := ⟨.hbm, 51, rfl⟩
abbrev main_c_4 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_call1_cst : Ref sig .tc := ⟨.hbm, 82, rfl⟩
abbrev main_call1_v0 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v63 : Ref sig .tc := ⟨.hbm, 103, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S650000_S650000x1_0 : S650000.BroadcastsInDim S650000x1 (![0] : Fin 1 → Fin S650000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000x1_S50000x64_0_1 : S50000x1.BroadcastsInDim S50000x64 (![0, 1] : Fin 2 → Fin S50000x64.rank)
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S50000_S650000x1_S650000_n_0_0_1_wf : ScatterDims.WF S50000 S650000x1 S650000 [] [0] [0] 1
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel program's run with its result named.

  The program is five kernel launches among three stretches of host operations.  Every weakly fair execution
  terminates, nothing faulting, and the final memory is read off the last boundary's buffer contents: the result
  buffer holds what the fifth launch's write-backs leave in it, and every argument is as launched.
-/
import proofs.«162967_j10161892623037_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: the result buffer ends at the last boundary's contents of it, the arguments as
    launched. -/
theorem run_result : θ_run defs (onTc (τ := τ) (main (F := F))) ⟨m, fun _ => 0, ρ⟩ (fun r => ∀ c : Dev nD,
      r.2.mem ((c.tc : Thread nD τ).loc main_v45) = W8 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v45 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.Hand

end
-- ==== Proof.Stages.lean ====
/-
  The reference's dense stages as functions of the arrays they read, spelt with the reference program's own host
  operations: a matrix product, a matrix product plus a row of biases, and the row-wise log-softmax of the output
  layer's logits (the row maximum, the shifted logits, the logarithm of the row sum of their exponentials).
-/
import proofs.«162967_j10161892623037_1_alg».proof.ReferenceIdeal
import proofs.«162967_j10161892623037_1_alg».proof.Proof.Gen.ReferenceIdeal
import Idealize.ShloMosaic.PureOps.Ideal

noncomputable section

namespace Cert.ReferenceIdeal.Stages

open Cert.ReferenceIdeal Cert.ReferenceIdeal.Gen Idealize.ShloMosaic

/-- `x · w` for a [50000,128] by [128,128] product. -/
def matProd (x : FVec Ideal S50000x128 .f32) (w : FVec Ideal S128x128 .f32) : FVec Ideal S50000x128 .f32 :=
  Host.dotGeneral (F := Ideal) dot_S50000x128_S128x128_S50000x128_1_0_0_1_n_n none x w

/-- `x · w + b`, the bias row added to every row. -/
def affine (x : FVec Ideal S50000x128 .f32) (w : FVec Ideal S128x128 .f32) (b : FVec Ideal S128 .f32) : FVec Ideal S50000x128 .f32 :=
  addf (matProd x w) (broadcastInDim S50000x128 ![0, 1] bcast_S1x128_S50000x128_0_1 (broadcastInDim S1x128 ![1] bcast_S128_S1x128_1 b))

/-- The output layer's logits `x · w + b`, [50000,64]. -/
def logits (x : FVec Ideal S50000x128 .f32) (w : FVec Ideal S128x64 .f32) (b : FVec Ideal S64 .f32) : FVec Ideal S50000x64 .f32 :=
  addf (Host.dotGeneral (F := Ideal) dot_S50000x128_S128x64_S50000x64_1_0_0_1_n_n none x w)
    (broadcastInDim S50000x64 ![0, 1] bcast_S1x64_S50000x64_0_1 (broadcastInDim S1x64 ![1] bcast_S64_S1x64_1 b))

/-- Each row's maximum (taken from -inf, and once more against -inf). -/
def rowMax (l : FVec Ideal S50000x64 .f32) : FVec Ideal S50000 .f32 :=
  maximumf (broadcastInDim S50000 ![] bcast_S_S50000 (constant (F := Ideal) S_ .f32 0xFF800000#32))
    (Host.reduce FloatOps.maximumf l (constant (F := Ideal) S_ .f32 0xFF800000#32) reducesTo_S50000x64_S50000_d1 h_S_)

/-- The logits with their row's maximum subtracted. -/
def shifted (l : FVec Ideal S50000x64 .f32) : FVec Ideal S50000x64 .f32 :=
  subf l (broadcastInDim S50000x64 ![0, 1] bcast_S50000x1_S50000x64_0_1 (broadcastInDim S50000x1 ![0] bcast_S50000_S50000x1_0 (rowMax l)))

/-- The row-wise log-softmax: the shifted logits minus the logarithm of the row sum of their exponentials. -/
def logSoftmaxRows (l : FVec Ideal S50000x64 .f32) : FVec Ideal S50000x64 .f32 :=
  subf (shifted l) (broadcastInDim S50000x64 ![0, 1] bcast_S50000x1_S50000x64_0_1
    (Host.log (broadcastInDim S50000x1 ![0] bcast_S50000_S50000x1_0
      (Host.reduceAdd (Host.exp (shifted l)) (constant (F := Ideal) S_ .f32 0x00000000#32) reducesTo_S50000x64_S50000_d1 h_S_))))

end Cert.ReferenceIdeal.Stages

end
-- ==== Proof.Network.lean ====
/-
  The reference network as one function of its ten arguments, spelt with the reference program's own host operations:
  the edge list with a self-loop appended for every node, each node's in-degree, the mean of a feature array over a
  node's in-neighbours (gather by source, sum by destination, divide by the degree clamped below at one), a graph
  convolution layer (that mean of x·w, plus x·w' + b, clamped below at zero), and two such layers followed by the
  output layer's row-wise log-softmax.
-/
import proofs.«162967_j10161892623037_1_alg».proof.Proof.Stages

noncomputable section

namespace Cert.ReferenceIdeal.Stages

open Cert.ReferenceIdeal Cert.ReferenceIdeal.Gen Idealize.ShloMosaic

/-- The edge list: row 0 the sources, row 1 the destinations. -/
abbrev Edges : Type := (⟨S2x600000, .i32⟩ : BufTy).Contents (Elt Ideal)
/-- One endpoint per edge, the self-loops included. -/
abbrev Ends : Type := (⟨S650000, .i32⟩ : BufTy).Contents (Elt Ideal)

/-- The source of every edge, then every node once (its self-loop). -/
def srcIdx (e : Edges) : Ends :=
  concatenate S650000 0 [⟨S600000, (shapeCast _ (extractStridedSlice S1x600000 ![0, 0] e slices_S2x600000_S1x600000_0_0) shapeCasts_S1x600000_S600000)⟩, ⟨S50000, (iotaInDim S50000 32 0)⟩] concatenates_S600000_S50000_S650000_d0

/-- The destination of every edge, then every node once (its self-loop). -/
def dstIdx (e : Edges) : Ends :=
  concatenate S650000 0 [⟨S600000, (shapeCast _ (extractStridedSlice S1x600000 ![1, 0] e slices_S2x600000_S1x600000_1_0) shapeCasts_S1x600000_S600000)⟩, ⟨S50000, (iotaInDim S50000 32 0)⟩] concatenates_S600000_S50000_S650000_d0

/-- Each node's in-degree: ones summed by destination. -/
def degree (dst : Ends) : FVec Ideal S50000 .f32 :=
  Host.scatterAdd scatter_S50000_S650000x1_S650000_n_0_0_1
    (broadcastInDim S50000 ![] bcast_S_S50000 (constant (F := Ideal) S_ .f32 0x00000000#32))
    (broadcastInDim S650000x1 ![0] bcast_S650000_S650000x1_0 dst)
    (broadcastInDim S650000 ![] bcast_S_S650000 (constant (F := Ideal) S_ .f32 0x3F800000#32))

/-- The sources with a negative index counted from the end. -/
def wrapped (src : Ends) : Ends :=
  select (cmpi .slt src (broadcastInDim S650000 ![] bcast_S_S650000 (constantI S_ 32 0#32)))
    (addi src (broadcastInDim S650000 ![] bcast_S_S650000 (constantI S_ 32 50000#32))) src

/-- The sum of `h`'s rows over each node's in-neighbours: rows gathered by source, summed by destination. -/
def neighbourSum (h : FVec Ideal S50000x128 .f32) (src dst : Ends) : FVec Ideal S50000x128 .f32 :=
  Host.scatterAdd scatter_S50000x128_S650000x1_S650000x128_1_0_0_1
    (broadcastInDim S50000x128 ![] bcast_S_S50000x128 (constant (F := Ideal) S_ .f32 0x00000000#32))
    (broadcastInDim S650000x1 ![0] bcast_S650000_S650000x1_0 dst)
    (Host.gather gather_S50000x128_S650000x1_S650000x128_1_0_n_n_0_1_1128 h
      (broadcastInDim S650000x1 ![0] bcast_S650000_S650000x1_0 (wrapped src)))

/-- A degree vector clamped below at one and repeated along every row. -/
def degreeRows (deg : FVec Ideal S50000 .f32) : FVec Ideal S50000x128 .f32 :=
  broadcastInDim S50000x128 ![0, 1] bcast_S50000x1_S50000x128_0_1
    (broadcastInDim S50000x1 ![0] bcast_S50000_S50000x1_0
      (maximumf deg (broadcastInDim S50000 ![] bcast_S_S50000 (constant (F := Ideal) S_ .f32 0x3F800000#32))))

/-- The mean of `h`'s rows over each node's in-neighbours. -/
def neighbourMean (h : FVec Ideal S50000x128 .f32) (src dst : Ends) (deg : FVec Ideal S50000 .f32) : FVec Ideal S50000x128 .f32 :=
  Host.divf (neighbourSum h src dst) (degreeRows deg)

/-- An array clamped below at zero. -/
def relu (x : FVec Ideal S50000x128 .f32) : FVec Ideal S50000x128 .f32 :=
  maximumf x (broadcastInDim S50000x128 ![] bcast_S_S50000x128 (constant (F := Ideal) S_ .f32 0x00000000#32))

/-- One graph convolution layer. -/
def layer (x : FVec Ideal S50000x128 .f32) (src dst : Ends) (deg : FVec Ideal S50000 .f32) (w lw : FVec Ideal S128x128 .f32) (lb : FVec Ideal S128 .f32) :
    FVec Ideal S50000x128 .f32 :=
  relu (addf (neighbourMean (matProd x w) src dst deg) (affine x lw lb))

/-- The whole network. -/
def network (x0 : FVec Ideal S50000x128 .f32) (e : Edges) (w1 lw1 : FVec Ideal S128x128 .f32) (lb1 : FVec Ideal S128 .f32)
    (w2 lw2 : FVec Ideal S128x128 .f32) (lb2 : FVec Ideal S128 .f32) (wo : FVec Ideal S128x64 .f32) (bo : FVec Ideal S64 .f32) :
    FVec Ideal S50000x64 .f32 :=
  logSoftmaxRows (logits
    (layer (layer x0 (srcIdx e) (dstIdx e) (degree (dstIdx e)) w1 lw1 lb1) (srcIdx e) (dstIdx e) (degree (dstIdx e)) w2 lw2 lb2) wo bo)

end Cert.ReferenceIdeal.Stages

end
-- ==== Proof.HostFirst.lean ====
/-
  What the first stretch of host operations leaves, before the first launch: the arguments untouched, and from the edge
  list the sources and destinations with a self-loop per node appended, and every node's in-degree.
-/
import proofs.«162967_j10161892623037_1_alg».proof.Proof.Gen.KernelIdeal.Frame
import proofs.«162967_j10161892623037_1_alg».proof.Proof.Network

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- No operation of the named stretch writes the buffer in the goal. -/
local macro "unwritten" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

theorem W1_arg0 (c : Dev nD) : W1 m ρ c (Proc.devRef .tc main_arg0) = m ((c : Thread nD τ).loc main_arg0) :=
  StableHlo.after_of_forall_not_mem (b := Proc.devRef .tc main_arg0) _ _ (by unwritten hostOps0)
theorem W1_arg2 (c : Dev nD) : W1 m ρ c (Proc.devRef .tc main_arg2) = m ((c : Thread nD τ).loc main_arg2) :=
  StableHlo.after_of_forall_not_mem (b := Proc.devRef .tc main_arg2) _ _ (by unwritten hostOps0)
theorem W1_arg3 (c : Dev nD) : W1 m ρ c (Proc.devRef .tc main_arg3) = m ((c : Thread nD τ).loc main_arg3) :=
  StableHlo.after_of_forall_not_mem (b := Proc.devRef .tc main_arg3) _ _ (by unwritten hostOps0)
theorem W1_arg4 (c : Dev nD) : W1 m ρ c (Proc.devRef .tc main_arg4) = m ((c : Thread nD τ).loc main_arg4) :=
  StableHlo.after_of_forall_not_mem (b := Proc.devRef .tc main_arg4) _ _ (by unwritten hostOps0)

theorem W1_arg5 (c : Dev nD) : W1 m ρ c (Proc.devRef .tc main_arg5) = m ((c : Thread nD τ).loc main_arg5) :=
  StableHlo.after_of_forall_not_mem (b := Proc.devRef .tc main_arg5) _ _ (by unwritten hostOps0)
theorem W1_arg6 (c : Dev nD) : W1 m ρ c (Proc.devRef .tc main_arg6) = m ((c : Thread nD τ).loc main_arg6) :=
  StableHlo.after_of_forall_not_mem (b := Proc.devRef .tc main_arg6) _ _ (by unwritten hostOps0)
theorem W1_arg7 (c : Dev nD) : W1 m ρ c (Proc.devRef .tc main_arg7) = m ((c : Thread nD τ).loc main_arg7) :=
  StableHlo.after_of_forall_not_mem (b := Proc.devRef .tc main_arg7) _ _ (by unwritten hostOps0)
theorem W1_arg8 (c : Dev nD) : W1 m ρ c (Proc.devRef .tc main_arg8) = m ((c : Thread nD τ).loc main_arg8) :=
  StableHlo.after_of_forall_not_mem (b := Proc.devRef .tc main_arg8) _ _ (by unwritten hostOps0)
theorem W1_arg9 (c : Dev nD) : W1 m ρ c (Proc.devRef .tc main_arg9) = m ((c : Thread nD τ).loc main_arg9) :=
  StableHlo.after_of_forall_not_mem (b := Proc.devRef .tc main_arg9) _ _ (by unwritten hostOps0)

/-- The sources, self-loops appended. -/
theorem W1_src (c : Dev nD) :
    W1 m ρ c (Proc.devRef .tc main_v3) = Cert.ReferenceIdeal.Stages.srcIdx (m ((c : Thread nD τ).loc main_arg1)) := by
  show StableHlo.after hostOps0 (W0 m ρ c) (Proc.devRef .tc main_v3) = _
  after_results
  rfl

/-- The destinations, self-loops appended. -/
theorem W1_dst (c : Dev nD) :
    W1 m ρ c (Proc.devRef .tc main_v6) = Cert.ReferenceIdeal.Stages.dstIdx (m ((c : Thread nD τ).loc main_arg1)) := by
  show StableHlo.after hostOps0 (W0 m ρ c) (Proc.devRef .tc main_v6) = _
  after_results
  rfl

/-- Every node's in-degree. -/
theorem W1_degree (c : Dev nD) :
    W1 m ρ c (Proc.devRef .tc main_v10) = Cert.ReferenceIdeal.Stages.degree (Cert.ReferenceIdeal.Stages.dstIdx (m ((c : Thread nD τ).loc main_arg1))) := by
  show StableHlo.after hostOps0 (W0 m ρ c) (Proc.devRef .tc main_v10) = _
  after_results
  rfl

end Cert.KernelIdeal.Hand

end
-- ==== Proof.HostSecond.lean ====
/-
  What the second stretch of host operations leaves, between the first launch and the second: the neighbourhood mean of
  the first launch's product x·w (rows gathered by source, summed by destination, divided by the clamped degree), from
  the endpoints and degrees the first stretch left; everything else it reads stays as it was.
-/
import proofs.«162967_j10161892623037_1_alg».proof.Proof.Gen.KernelIdeal.Frame
import proofs.«162967_j10161892623037_1_alg».proof.Proof.Network

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- No operation of the named stretch writes the buffer in the goal. -/
local macro "unwritten" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

set_option maxHeartbeats 2000000 in
/-- From any buffer contents, the stretch leaves the neighbourhood mean of the array it finds in the first launch's first
    output, by the endpoints and degrees it finds. -/
theorem afterSecond_mean (V : Valuation τ sig (Elt Ideal)) :
    StableHlo.after hostOps1 V (Proc.devRef .tc main_v26)
      = Cert.ReferenceIdeal.Stages.neighbourMean (V (Proc.devRef .tc main_v11_0)) (V (Proc.devRef .tc main_v3))
          (V (Proc.devRef .tc main_v6)) (V (Proc.devRef .tc main_v10)) := by
  after_results_simp
  rfl

/-- The neighbourhood mean of the first launch's first output. -/
theorem W3_mean (c : Dev nD) :
    W3 m ρ c (Proc.devRef .tc main_v26)
      = Cert.ReferenceIdeal.Stages.neighbourMean (W2 m ρ c (Proc.devRef .tc main_v11_0)) (W2 m ρ c (Proc.devRef .tc main_v3))
          (W2 m ρ c (Proc.devRef .tc main_v6)) (W2 m ρ c (Proc.devRef .tc main_v10)) :=
  afterSecond_mean (W2 m ρ c)

theorem W3_dense (c : Dev nD) : W3 m ρ c (Proc.devRef .tc main_v11_1) = W2 m ρ c (Proc.devRef .tc main_v11_1) :=
  StableHlo.after_of_forall_not_mem (b := Proc.devRef .tc main_v11_1) _ _ (by unwritten hostOps1)
theorem W3_src (c : Dev nD) : W3 m ρ c (Proc.devRef .tc main_v3) = W2 m ρ c (Proc.devRef .tc main_v3) :=
  StableHlo.after_of_forall_not_mem (b := Proc.devRef .tc main_v3) _ _ (by unwritten hostOps1)
theorem W3_dst (c : Dev nD) : W3 m ρ c (Proc.devRef .tc main_v6) = W2 m ρ c (Proc.devRef .tc main_v6) :=
  StableHlo.after_of_forall_not_mem (b := Proc.devRef .tc main_v6) _ _ (by unwritten hostOps1)
theorem W3_degree (c : Dev nD) : W3 m ρ c (Proc.devRef .tc main_v10) = W2 m ρ c (Proc.devRef .tc main_v10) :=
  StableHlo.after_of_forall_not_mem (b := Proc.devRef .tc main_v10) _ _ (by unwritten hostOps1)
theorem W3_arg5 (c : Dev nD) : W3 m ρ c (Proc.devRef .tc main_arg5) = W2 m ρ c (Proc.devRef .tc main_arg5) :=
  StableHlo.after_of_forall_not_mem (b := Proc.devRef .tc main_arg5) _ _ (by unwritten hostOps1)
theorem W3_arg6 (c : Dev nD) : W3 m ρ c (Proc.devRef .tc main_arg6) = W2 m ρ c (Proc.devRef .tc main_arg6) :=
  StableHlo.after_of_forall_not_mem (b := Proc.devRef .tc main_arg6) _ _ (by unwritten hostOps1)
theorem W3_arg7 (c : Dev nD) : W3 m ρ c (Proc.devRef .tc main_arg7) = W2 m ρ c (Proc.devRef .tc main_arg7) :=
  StableHlo.after_of_forall_not_mem (b := Proc.devRef .tc main_arg7) _ _ (by unwritten hostOps1)
theorem W3_arg8 (c : Dev nD) : W3 m ρ c (Proc.devRef .tc main_arg8) = W2 m ρ c (Proc.devRef .tc main_arg8) :=
  StableHlo.after_of_forall_not_mem (b := Proc.devRef .tc main_arg8) _ _ (by unwritten hostOps1)
theorem W3_arg9 (c : Dev nD) : W3 m ρ c (Proc.devRef .tc main_arg9) = W2 m ρ c (Proc.devRef .tc main_arg9) :=
  StableHlo.after_of_forall_not_mem (b := Proc.devRef .tc main_arg9) _ _ (by unwritten hostOps1)

end Cert.KernelIdeal.Hand

end
-- ==== Proof.HostThird.lean ====
/-
  What the third stretch of host operations leaves, between the third launch and the fourth: the neighbourhood mean of
  the third launch's product, from the same endpoints and degrees; everything else it reads stays as it was.
-/
import proofs.«162967_j10161892623037_1_alg».proof.Proof.Gen.KernelIdeal.Frame
import proofs.«162967_j10161892623037_1_alg».proof.Proof.Network

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- No operation of the named stretch writes the buffer in the goal. -/
local macro "unwritten" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

set_option maxHeartbeats 2000000 in
/-- From any buffer contents, the stretch leaves the neighbourhood mean of the array it finds in the third launch's first
    output, by the endpoints and degrees it finds. -/
theorem afterThird_mean (V : Valuation τ sig (Elt Ideal)) :
    StableHlo.after hostOps3 V (Proc.devRef .tc main_v43)
      = Cert.ReferenceIdeal.Stages.neighbourMean (V (Proc.devRef .tc main_v28_0)) (V (Proc.devRef .tc main_v3))
          (V (Proc.devRef .tc main_v6)) (V (Proc.devRef .tc main_v10)) := by
  after_results_simp
  rfl

/-- The neighbourhood mean of the third launch's first output. -/
theorem W6_mean (c : Dev nD) :
    W6 m ρ c (Proc.devRef .tc main_v43)
      = Cert.ReferenceIdeal.Stages.neighbourMean (W5 m ρ c (Proc.devRef .tc main_v28_0)) (W5 m ρ c (Proc.devRef .tc main_v3))
          (W5 m ρ c (Proc.devRef .tc main_v6)) (W5 m ρ c (Proc.devRef .tc main_v10)) :=
  afterThird_mean (W5 m ρ c)

theorem W6_dense (c : Dev nD) : W6 m ρ c (Proc.devRef .tc main_v28_1) = W5 m ρ c (Proc.devRef .tc main_v28_1) :=
  StableHlo.after_of_forall_not_mem (b := Proc.devRef .tc main_v28_1) _ _ (by unwritten hostOps3)
theorem W6_arg8 (c : Dev nD) : W6 m ρ c (Proc.devRef .tc main_arg8) = W5 m ρ c (Proc.devRef .tc main_arg8) :=
  StableHlo.after_of_forall_not_mem (b := Proc.devRef .tc main_arg8) _ _ (by unwritten hostOps3)
theorem W6_arg9 (c : Dev nD) : W6 m ρ c (Proc.devRef .tc main_arg9) = W5 m ρ c (Proc.devRef .tc main_arg9) :=
  StableHlo.after_of_forall_not_mem (b := Proc.devRef .tc main_arg9) _ _ (by unwritten hostOps3)

end Cert.KernelIdeal.Hand

end
-- ==== Proof.RowBlocks.lean ====
/-
  Shared by the launches' value modules: the sum of two arrays clamped below at zero (what both combining launches
  compute), and the fact that a block read at zero offsets is read whole.
-/
import proofs.«162967_j10161892623037_1_alg».proof.KernelIdeal
import Idealize.ShloMosaic.PureOps.Ideal

noncomputable section

namespace Cert.KernelIdeal.Hand

open Cert.KernelIdeal Idealize.ShloMosaic

theorem zeroOffsets : (![0, 0] : Fin 2 → Nat) = fun _ => 0 := funext fun a => by fin_cases a <;> rfl

/-- The sum of two arrays clamped below at zero, entry by entry. -/
def clampedSum (a b : S50000x128.Idx → EReal) : S50000x128.Idx → EReal :=
  fun i => FloatOps.maximumf (F := Ideal) (FloatOps.addf (F := Ideal) (a i) (b i)) (Scalar.ofBits (F := Ideal) .f32 0x00000000#32)

end Cert.KernelIdeal.Hand

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.LibHostMatmul.lean ====
/-
  A host `dot_general` of an `[m, k]` by a `[k, n]` matrix (contracting the first operand's columns with the second's
  rows), read at an entry at the ideal values: the sum over `c : Fin k` of `A (a, c) * B (c, b)`, for arbitrary extents.
  A constant broadcast from a scalar reads that constant's value everywhere.
-/
import Idealize.ShloMosaic.Lib.Pipeline.Value
import Idealize.ShloMosaic.Lib.ValueIdx
import Idealize.ShloMosaic.PureOps.Ideal.Laws

noncomputable section

namespace Idealize.ShloMosaic.DenseLayers

open Idealize.ShloMosaic Idealize.ShloMosaic.ValueIdx

/-- A row-by-column host matrix product read at an entry. -/
theorem dotGeneral_rowcol_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A scalar constant broadcast to any shape reads the constant's value at every index. -/
theorem broadcastInDim_scalar_constant_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w := rfl

end Idealize.ShloMosaic.DenseLayers

end
-- ==== Proof.DenseFirst.lean ====
/-
  The first launch (the first layer's two dense branches): its two output arrays, whole, as functions of the arrays it reads.  With `x` the
  [50000,128] array of rows, `w` and `w'` the two [128,128] weight matrices and `b` the [128] bias row, the first output is
  the matrix product `x · w` and the second is `x · w' + b`, the bias row added to every row: entry `(P, q)` of the first
  is `∑ k, x (P, k) * w (k, q)` and of the second `∑ k, x (P, k) * w' (k, q) + b q`.  Each of the 25 grid points works on
  2000 consecutive rows of `x` and of the two outputs and reads the weights and the bias whole; the points' blocks tile the
  output arrays.  A change of float format is the identity on the extended reals, so the body's narrowing of its operands
  before the products does not change the sums.
-/
import proofs.«162967_j10161892623037_1_alg».proof.Proof.Gen.KernelIdeal.Frame
import proofs.«162967_j10161892623037_1_alg».proof.Proof.Stages
import proofs.«162967_j10161892623037_1_alg».proof.Proof.RowBlocks
import proofs.«162967_j10161892623037_1_alg».proof.Proof.LibDenseLayers
import proofs.«162967_j10161892623037_1_alg».proof.Proof.LibHostMatmul
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.DenseLayers

variable (V : (c : Dev nD) → (b : Ref sig .tc) → Buf (Elt Ideal) ((c : Thread nD τ).loc b))

/-- The one offset of a vector read whole is zero. -/
theorem zeroOffset0 : (![0] : Fin 1 → Nat) = fun _ => 0 := funext fun a => by fin_cases a; rfl

/-- The body's first stored value at `(p, q)`: the sum over `k` of the products of row `p` of its block of `x` with column
    `q` of `w` (the narrowing of the operands is the identity on the extended reals). -/
theorem payload0_prod (x0 : Vec Ideal S2000x128 .f32) (w : Vec Ideal S128x128 .f32) (p : Fin 2000) (q : Fin 128) :
    k0_pay2 x0 w (ix2 p q) = ∑ k : Fin 128, x0 (ix2 p k) * w (ix2 k q) := by
  unfold k0_pay2 k0_pay1
  exact matmul_rowcol_zero_apply _ none (truncf .bf16 x0 bitsLt_bf16_f32) (truncf .bf16 w bitsLt_bf16_f32) p q

/-- The body's second stored value at `(p, q)`: the same sum against `w'`, plus the bias row's entry `q` (the row cast to
    one row of a matrix and repeated down the block's rows). -/
theorem payload0_affine (x0 : Vec Ideal S2000x128 .f32) (w : Vec Ideal S128x128 .f32) (b : Vec Ideal S128 .f32)
    (p : Fin 2000) (q : Fin 128) :
    k0_pay3 x0 w b (ix2 p q) = (∑ k : Fin 128, x0 (ix2 p k) * w (ix2 k q)) + b (ix1 q) := by
  unfold k0_pay3 k0_pay1
  refine congrArg₂ (· + ·) ?_ ?_
  · exact matmul_rowcol_zero_apply _ none (truncf .bf16 x0 bitsLt_bf16_f32) (truncf .bf16 w bitsLt_bf16_f32) p q
  · refine (broadcastTo_1b_ab_apply _ _ p q).trans ?_
    exact shapeCast_a_1a_apply b _ (0 : Fin 1) q

/-- The reference's matrix product at `(P, q)`: the sum over `k` of `x (P, k) * w (k, q)`. -/
theorem matProd0_apply (x : FVec Ideal S50000x128 .f32) (w : FVec Ideal S128x128 .f32) (P : Fin 50000) (q : Fin 128) :
    Cert.ReferenceIdeal.Stages.matProd x w (ix2 P q) = ∑ k : Fin 128, x (ix2 P k) * w (ix2 k q) := by
  unfold Cert.ReferenceIdeal.Stages.matProd
  exact dotGeneral_rowcol_apply _ none x w P q

/-- The reference's product plus bias at `(P, q)`: that sum plus `b q` (the bias row made one row of a matrix, then
    repeated down the 50000 rows). -/
theorem affine0_apply (x : FVec Ideal S50000x128 .f32) (w : FVec Ideal S128x128 .f32) (b : FVec Ideal S128 .f32)
    (P : Fin 50000) (q : Fin 128) :
    Cert.ReferenceIdeal.Stages.affine x w b (ix2 P q) = (∑ k : Fin 128, x (ix2 P k) * w (ix2 k q)) + b (ix1 q) := by
  unfold Cert.ReferenceIdeal.Stages.affine
  refine congrArg₂ (· + ·) (matProd0_apply x w P q) ?_
  refine (broadcastInDim_apply _ _ _ (ix2 P q) (ix2 (0 : Fin 1) q) fun a => ?_).trans ?_
  · match a with
    | ⟨0, _⟩ => rfl
    | ⟨1, _⟩ => rfl
  · refine broadcastInDim_apply _ _ b (ix2 (0 : Fin 1) q) (ix1 q) fun a => ?_
    match a with
    | ⟨0, _⟩ => rfl

/-- At grid point `t` the blocks of `x` and of the two outputs are row block `t`, all columns; the weights' and the bias's
    blocks are the whole arrays. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Entry `(p, k)` of point `t`'s block of `x` is entry `(2000 t + p, k)` of `x`. -/
theorem rowsIn0 (c : Dev nD) (t : Fin cfg0.N) (p : Fin 2000) (k : Fin 128) (hP : t.val * 2000 + p.val < 50000) :
    iblk0 V c 0 t (ix2 p k) = V c main_arg0 (ix2 (⟨t.val * 2000 + p.val, hP⟩ : Fin 50000) k) := by
  obtain ⟨e00, e01, -⟩ := blockIndex0 t
  show V c main_arg0 (((cfg0.win 0).blk t).view.emb (ix2 p k)) = _
  refine congrArg (V c main_arg0) ?_
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

/-- Point `t`'s block of `w` is `w`, whole. -/
theorem weightIn0_1 (c : Dev nD) (t : Fin cfg0.N) (k : Fin 128) (q : Fin 128) :
    iblk0 V c 1 t (ix2 k q) = V c main_arg2 (ix2 k q) := by
  obtain ⟨-, -, e10, e11, -⟩ := blockIndex0 t
  show V c main_arg2 (((cfg0.win 1).blk t).view.emb (ix2 k q)) = _
  refine congrArg (V c main_arg2) ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- Point `t`'s block of `w'` is `w'`, whole. -/
theorem weightIn0_2 (c : Dev nD) (t : Fin cfg0.N) (k : Fin 128) (q : Fin 128) :
    iblk0 V c 2 t (ix2 k q) = V c main_arg3 (ix2 k q) := by
  obtain ⟨-, -, -, -, e20, e21, -⟩ := blockIndex0 t
  show V c main_arg3 (((cfg0.win 2).blk t).view.emb (ix2 k q)) = _
  refine congrArg (V c main_arg3) ?_
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- Point `t`'s block of `b` is `b`, whole. -/
theorem biasIn0 (c : Dev nD) (t : Fin cfg0.N) (q : Fin 128) :
    iblk0 V c 3 t (ix1 q) = V c main_arg4 (ix1 q) := by
  obtain ⟨-, -, -, -, -, -, e30, -⟩ := blockIndex0 t
  show V c main_arg4 (((cfg0.win 3).blk t).view.emb (ix1 q)) = _
  refine congrArg (V c main_arg4) ?_
  funext a; apply Fin.ext
  match a with
  | ⟨0, _⟩ => show win0_3.index t (0 : Fin 1) * 128 + 1 * q.val = q.val; omega

/-- What point `t` writes back to the first output is rows `2000 t … 2000 t + 1999` of `x · w`. -/
theorem flushed0_4_eq (c : Dev nD) (t : Fin cfg0.N) :
    (dat0 V c).flushed 4 t = ((cfg0.win 4).blk t).view.read (Elt Ideal)
      (Cert.ReferenceIdeal.Stages.matProd (V c main_arg0) (V c main_arg2)) := by
  show (cfg0.win 4).cut (grid0.coords t) ((dat0 V c).after 4 t) = _
  rw [after0_4]
  unfold out0_4
  rw [View.canon_unit_zero zeroOffsets]
  simp only [View.ld_unit_zero (S := S2000x128) zeroOffsets, View.ld_unit_zero (S := S128x128) zeroOffsets]
  obtain ⟨-, -, -, -, -, -, -, e40, e41, -⟩ := blockIndex0 t
  have hN : cfg0.N = 25 := N_0
  have ht : t.val < 25 := hN ▸ t.isLt
  funext j
  obtain ⟨p, q, rfl⟩ : ∃ (p : Fin 2000) (q : Fin 128), j = ix2 p q := ⟨j 0, j 1, eq_ix2 j⟩
  have hP : t.val * 2000 + p.val < 50000 := by have := p.isLt; omega
  have ho : ((cfg0.win 4).blk t).view.emb (ix2 p q) = ix2 (⟨t.val * 2000 + p.val, hP⟩ : Fin 50000) q := by
    funext a; apply Fin.ext
    match a with
    | ⟨0, _⟩ => show win0_4.index t (0 : Fin 2) * 2000 + 1 * p.val = t.val * 2000 + p.val; omega
    | ⟨1, _⟩ => show win0_4.index t (1 : Fin 2) * 128 + 1 * q.val = q.val; omega
  show k0_pay2 (iblk0 V c 0 t) (iblk0 V c 1 t) (ix2 p q)
    = Cert.ReferenceIdeal.Stages.matProd (V c main_arg0) (V c main_arg2) (((cfg0.win 4).blk t).view.emb (ix2 p q))
  rw [ho, payload0_prod, matProd0_apply]
  exact Finset.sum_congr rfl fun k _ => by rw [rowsIn0 V c t p k hP, weightIn0_1 V c t k q]

/-- What point `t` writes back to the second output is rows `2000 t … 2000 t + 1999` of `x · w' + b`. -/
theorem flushed0_5_eq (c : Dev nD) (t : Fin cfg0.N) :
    (dat0 V c).flushed 5 t = ((cfg0.win 5).blk t).view.read (Elt Ideal)
      (Cert.ReferenceIdeal.Stages.affine (V c main_arg0) (V c main_arg3) (V c main_arg4)) := by
  show (cfg0.win 5).cut (grid0.coords t) ((dat0 V c).after 5 t) = _
  rw [after0_5]
  unfold out0_5
  rw [View.canon_unit_zero zeroOffsets]
  simp only [View.ld_unit_zero (S := S2000x128) zeroOffsets, View.ld_unit_zero (S := S128x128) zeroOffsets,
    View.ld_unit_zero (S := S128) zeroOffset0]
  obtain ⟨-, -, -, -, -, -, -, -, -, e50, e51⟩ := blockIndex0 t
  have hN : cfg0.N = 25 := N_0
  have ht : t.val < 25 := hN ▸ t.isLt
  funext j
  obtain ⟨p, q, rfl⟩ : ∃ (p : Fin 2000) (q : Fin 128), j = ix2 p q := ⟨j 0, j 1, eq_ix2 j⟩
  have hP : t.val * 2000 + p.val < 50000 := by have := p.isLt; omega
  have ho : ((cfg0.win 5).blk t).view.emb (ix2 p q) = ix2 (⟨t.val * 2000 + p.val, hP⟩ : Fin 50000) q := by
    funext a; apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  show k0_pay3 (iblk0 V c 0 t) (iblk0 V c 2 t) (iblk0 V c 3 t) (ix2 p q)
    = Cert.ReferenceIdeal.Stages.affine (V c main_arg0) (V c main_arg3) (V c main_arg4) (((cfg0.win 5).blk t).view.emb (ix2 p q))
  rw [ho, payload0_affine, affine0_apply, biasIn0 V c t q]
  refine congrArg (· + V c main_arg4 (ix1 q)) ?_
  exact Finset.sum_congr rfl fun k _ => by rw [rowsIn0 V c t p k hP, weightIn0_2 V c t k q]

/-- An index of the first output array is in point `t`'s block iff each coordinate is in the block's range on its axis. -/
theorem memBlock0_4 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v11_0).slice (win0_4.rect t)).set ↔ _
  rw [View.set_slice_whole, Rect.mem_set_unit]
  exact Iff.rfl

/-- The same for the second output array. -/
theorem memBlock0_5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v11_1).slice (win0_5.rect t)).set ↔ _
  rw [View.set_slice_whole, Rect.mem_set_unit]
  exact Iff.rfl

/-- The 25 row blocks cover the first output array: row `r` lies in block `r / 2000`. -/
theorem covered0_4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, -, -, -, e40, e41, -⟩ := blockIndex0 ⟨(i 0).val / 2000, ht⟩
  refine ⟨⟨(i 0).val / 2000, ht⟩, flush0_4 _, ?_⟩
  rw [memBlock0_4]
  intro a
  match a with
  | ⟨0, _⟩ =>
    show win0_4.index ⟨(i 0).val / 2000, ht⟩ (0 : Fin 2) * 2000 ≤ (i 0).val ∧ (i 0).val < win0_4.index ⟨(i 0).val / 2000, ht⟩ (0 : Fin 2) * 2000 + 2000
    rw [e40]; show (i 0).val / 2000 * 2000 ≤ (i 0).val ∧ (i 0).val < (i 0).val / 2000 * 2000 + 2000; omega
  | ⟨1, _⟩ =>
    show win0_4.index ⟨(i 0).val / 2000, ht⟩ (1 : Fin 2) * 128 ≤ (i 1).val ∧ (i 1).val < win0_4.index ⟨(i 0).val / 2000, ht⟩ (1 : Fin 2) * 128 + 128
    rw [e41]; omega

/-- The 25 row blocks cover the second output array in the same way. -/
theorem covered0_5 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, -, -, -, -, -, e50, e51⟩ := blockIndex0 ⟨(i 0).val / 2000, ht⟩
  refine ⟨⟨(i 0).val / 2000, ht⟩, flush0_5 _, ?_⟩
  rw [memBlock0_5]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    rw [e51]; omega

/-- After the launch its first output array is the matrix product `x · w`, whole. -/
theorem final0_4 (c : Dev nD) :
    (dat0 V c).arrAt 4 cfg0.N = Cert.ReferenceIdeal.Stages.matProd (V c main_arg0) (V c main_arg2) :=
  (dat0 V c).arrAt_eq_of_cover 4 (Cert.ReferenceIdeal.Stages.matProd (V c main_arg0) (V c main_arg2))
    (fun t _ => flushed0_4_eq V c t) covered0_4

/-- After the launch its second output array is `x · w' + b`, the bias row added to every row, whole. -/
theorem final0_5 (c : Dev nD) :
    (dat0 V c).arrAt 5 cfg0.N = Cert.ReferenceIdeal.Stages.affine (V c main_arg0) (V c main_arg3) (V c main_arg4) :=
  (dat0 V c).arrAt_eq_of_cover 5 (Cert.ReferenceIdeal.Stages.affine (V c main_arg0) (V c main_arg3) (V c main_arg4))
    (fun t _ => flushed0_5_eq V c t) covered0_5

end Cert.KernelIdeal.Hand

end
-- ==== Proof.CombineFirst.lean ====
/-
  The second launch (the first of the two that combine a neighbourhood mean with a dense branch): its output array, whole, as
  a function of the two arrays it reads — entry by entry their sum clamped below at zero.  Each of the 25 grid points
  works on 2000 consecutive rows; the points' blocks tile the array.
-/
import proofs.«162967_j10161892623037_1_alg».proof.Proof.Gen.KernelIdeal.Frame
import proofs.«162967_j10161892623037_1_alg».proof.Proof.RowBlocks
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The body's stored value is that clamped sum of its two loaded blocks, entry by entry. -/
theorem payload1_eq (x0 x1 : Vec Ideal S2000x128 .f32) :
    k1_pay1 x0 x1 = fun j => FloatOps.maximumf (F := Ideal) (FloatOps.addf (F := Ideal) (x0 j) (x1 j)) (Scalar.ofBits (F := Ideal) .f32 0x00000000#32) := by
  unfold k1_pay1
  simp only [shapeCast_self]
  rfl

/-- At grid point `t` every window's block is row block `t`, all columns. -/
theorem blockIndex1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is rows `2000 t … 2000 t + 1999` of the clamped sum of the two arrays the launch reads. -/
theorem flushed1_eq (c : Dev nD) (t : Fin cfg1.N) :
    (dat1 V c).flushed 2 t = ((cfg1.win 2).blk t).view.read (Elt Ideal) (clampedSum (V c main_v26) (V c main_v11_1)) := by
  show (cfg1.win 2).cut (grid1.coords t) ((dat1 V c).after 2 t) = _
  rw [after1_2]
  unfold out1_2
  rw [View.canon_unit_zero zeroOffsets]
  simp only [View.ld_unit_zero (S := S2000x128) zeroOffsets]
  rw [payload1_eq]
  obtain ⟨e0, e1, e2, e3, e4, e5⟩ := blockIndex1 t
  funext j
  show FloatOps.maximumf (F := Ideal) (FloatOps.addf (F := Ideal) (V c main_v26 (((cfg1.win 0).blk t).view.emb j)) (V c main_v11_1 (((cfg1.win 1).blk t).view.emb j))) _
    = FloatOps.maximumf (F := Ideal) (FloatOps.addf (F := Ideal) (V c main_v26 (((cfg1.win 2).blk t).view.emb j)) (V c main_v11_1 (((cfg1.win 2).blk t).view.emb j))) _
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 128 + 1 * (j 1).val = win1_2.index t (1 : Fin 2) * 128 + 1 * (j 1).val; omega
  rw [h0, h1]

/-- An index of the output array is in point `t`'s block iff each coordinate is in the block's range on its axis. -/
theorem memBlock1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v27).slice (win1_2.rect t)).set ↔ _
  rw [View.set_slice_whole, Rect.mem_set_unit]
  exact Iff.rfl

/-- The 25 row blocks cover the output array: row `r` lies in block `r / 2000`. -/
theorem covered1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  have ht : (i 0).val / 2000 < cfg1.N := by rw [hN]; omega
  obtain ⟨e0, e1, e2, e3, e4, e5⟩ := blockIndex1 ⟨(i 0).val / 2000, ht⟩
  refine ⟨⟨(i 0).val / 2000, ht⟩, flush1_2 _, ?_⟩
  rw [memBlock1]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ (1 : Fin 2) * 128 ≤ (i 1).val ∧ (i 1).val < win1_2.index ⟨(i 0).val / 2000, ht⟩ (1 : Fin 2) * 128 + 128
    rw [e5]; omega

/-- After the launch its output array is the clamped sum of the two arrays it read, whole. -/
theorem final1 (c : Dev nD) :
    (dat1 V c).arrAt 2 cfg1.N = clampedSum (V c main_v26) (V c main_v11_1) :=
  (dat1 V c).arrAt_eq_of_cover 2 (clampedSum (V c main_v26) (V c main_v11_1)) (fun t _ => flushed1_eq V c t) covered1

end Cert.KernelIdeal.Hand

end
-- ==== Proof.DenseSecond.lean ====
/-
  The third launch (the second layer's two dense branches): its two output arrays, whole, as functions of the arrays it reads.  With `x` the
  [50000,128] array of rows, `w` and `w'` the two [128,128] weight matrices and `b` the [128] bias row, the first output is
  the matrix product `x · w` and the second is `x · w' + b`, the bias row added to every row: entry `(P, q)` of the first
  is `∑ k, x (P, k) * w (k, q)` and of the second `∑ k, x (P, k) * w' (k, q) + b q`.  Each of the 25 grid points works on
  2000 consecutive rows of `x` and of the two outputs and reads the weights and the bias whole; the points' blocks tile the
  output arrays.  A change of float format is the identity on the extended reals, so the body's narrowing of its operands
  before the products does not change the sums; nor does the body's cast of its block of `x` to its own shape, which is the identity.
-/
import proofs.«162967_j10161892623037_1_alg».proof.Proof.Gen.KernelIdeal.Frame
import proofs.«162967_j10161892623037_1_alg».proof.Proof.Stages
import proofs.«162967_j10161892623037_1_alg».proof.Proof.RowBlocks
import proofs.«162967_j10161892623037_1_alg».proof.Proof.LibDenseLayers
import proofs.«162967_j10161892623037_1_alg».proof.Proof.LibHostMatmul
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.DenseLayers

variable (V : (c : Dev nD) → (b : Ref sig .tc) → Buf (Elt Ideal) ((c : Thread nD τ).loc b))

/-- The one offset of a vector read whole is zero. -/
theorem zeroOffset2 : (![0] : Fin 1 → Nat) = fun _ => 0 := funext fun a => by fin_cases a; rfl

/-- The body's first stored value at `(p, q)`: the sum over `k` of the products of row `p` of its block of `x` with column
    `q` of `w` (the narrowing of the operands is the identity on the extended reals, and so is the cast of the block to its own shape). -/
theorem payload2_prod (x0 : Vec Ideal S2000x128 .f32) (w : Vec Ideal S128x128 .f32) (p : Fin 2000) (q : Fin 128) :
    k2_pay2 x0 w (ix2 p q) = ∑ k : Fin 128, x0 (ix2 p k) * w (ix2 k q) := by
  unfold k2_pay2 k2_pay1
  simp only [shapeCast_self]
  exact matmul_rowcol_zero_apply _ none (truncf .bf16 x0 bitsLt_bf16_f32) (truncf .bf16 w bitsLt_bf16_f32) p q

/-- The body's second stored value at `(p, q)`: the same sum against `w'`, plus the bias row's entry `q` (the row cast to
    one row of a matrix and repeated down the block's rows). -/
theorem payload2_affine (x0 : Vec Ideal S2000x128 .f32) (w : Vec Ideal S128x128 .f32) (b : Vec Ideal S128 .f32)
    (p : Fin 2000) (q : Fin 128) :
    k2_pay3 x0 w b (ix2 p q) = (∑ k : Fin 128, x0 (ix2 p k) * w (ix2 k q)) + b (ix1 q) := by
  unfold k2_pay3 k2_pay1
  simp only [shapeCast_self]
  refine congrArg₂ (· + ·) ?_ ?_
  · exact matmul_rowcol_zero_apply _ none (truncf .bf16 x0 bitsLt_bf16_f32) (truncf .bf16 w bitsLt_bf16_f32) p q
  · refine (broadcastTo_1b_ab_apply _ _ p q).trans ?_
    exact shapeCast_a_1a_apply b _ (0 : Fin 1) q

/-- The reference's matrix product at `(P, q)`: the sum over `k` of `x (P, k) * w (k, q)`. -/
theorem matProd2_apply (x : FVec Ideal S50000x128 .f32) (w : FVec Ideal S128x128 .f32) (P : Fin 50000) (q : Fin 128) :
    Cert.ReferenceIdeal.Stages.matProd x w (ix2 P q) = ∑ k : Fin 128, x (ix2 P k) * w (ix2 k q) := by
  unfold Cert.ReferenceIdeal.Stages.matProd
  exact dotGeneral_rowcol_apply _ none x w P q

/-- The reference's product plus bias at `(P, q)`: that sum plus `b q` (the bias row made one row of a matrix, then
    repeated down the 50000 rows). -/
theorem affine2_apply (x : FVec Ideal S50000x128 .f32) (w : FVec Ideal S128x128 .f32) (b : FVec Ideal S128 .f32)
    (P : Fin 50000) (q : Fin 128) :
    Cert.ReferenceIdeal.Stages.affine x w b (ix2 P q) = (∑ k : Fin 128, x (ix2 P k) * w (ix2 k q)) + b (ix1 q) := by
  unfold Cert.ReferenceIdeal.Stages.affine
  refine congrArg₂ (· + ·) (matProd2_apply x w P q) ?_
  refine (broadcastInDim_apply _ _ _ (ix2 P q) (ix2 (0 : Fin 1) q) fun a => ?_).trans ?_
  · match a with
    | ⟨0, _⟩ => rfl
    | ⟨1, _⟩ => rfl
  · refine broadcastInDim_apply _ _ b (ix2 (0 : Fin 1) q) (ix1 q) fun a => ?_
    match a with
    | ⟨0, _⟩ => rfl

/-- At grid point `t` the blocks of `x` and of the two outputs are row block `t`, all columns; the weights' and the bias's
    blocks are the whole arrays. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Entry `(p, k)` of point `t`'s block of `x` is entry `(2000 t + p, k)` of `x`. -/
theorem rowsIn2 (c : Dev nD) (t : Fin cfg2.N) (p : Fin 2000) (k : Fin 128) (hP : t.val * 2000 + p.val < 50000) :
    iblk2 V c 0 t (ix2 p k) = V c main_v27 (ix2 (⟨t.val * 2000 + p.val, hP⟩ : Fin 50000) k) := by
  obtain ⟨e00, e01, -⟩ := blockIndex2 t
  show V c main_v27 (((cfg2.win 0).blk t).view.emb (ix2 p k)) = _
  refine congrArg (V c main_v27) ?_
  funext a; apply Fin.ext
  match a with
  | ⟨0, _⟩ => show win2_0.index t (0 : Fin 2) * 2000 + 1 * p.val = t.val * 2000 + p.val; omega
  | ⟨1, _⟩ => show win2_0.index t (1 : Fin 2) * 128 + 1 * k.val = k.val; omega

/-- Point `t`'s block of `w` is `w`, whole. -/
theorem weightIn2_1 (c : Dev nD) (t : Fin cfg2.N) (k : Fin 128) (q : Fin 128) :
    iblk2 V c 1 t (ix2 k q) = V c main_arg5 (ix2 k q) := by
  obtain ⟨-, -, e10, e11, -⟩ := blockIndex2 t
  show V c main_arg5 (((cfg2.win 1).blk t).view.emb (ix2 k q)) = _
  refine congrArg (V c main_arg5) ?_
  funext a; apply Fin.ext
  match a with
  | ⟨0, _⟩ => show win2_1.index t (0 : Fin 2) * 128 + 1 * k.val = k.val; omega
  | ⟨1, _⟩ => show win2_1.index t (1 : Fin 2) * 128 + 1 * q.val = q.val; omega

/-- Point `t`'s block of `w'` is `w'`, whole. -/
theorem weightIn2_2 (c : Dev nD) (t : Fin cfg2.N) (k : Fin 128) (q : Fin 128) :
    iblk2 V c 2 t (ix2 k q) = V c main_arg6 (ix2 k q) := by
  obtain ⟨-, -, -, -, e20, e21, -⟩ := blockIndex2 t
  show V c main_arg6 (((cfg2.win 2).blk t).view.emb (ix2 k q)) = _
  refine congrArg (V c main_arg6) ?_
  funext a; apply Fin.ext
  match a with
  | ⟨0, _⟩ => show win2_2.index t (0 : Fin 2) * 128 + 1 * k.val = k.val; omega
  | ⟨1, _⟩ => show win2_2.index t (1 : Fin 2) * 128 + 1 * q.val = q.val; omega

/-- Point `t`'s block of `b` is `b`, whole. -/
theorem biasIn2 (c : Dev nD) (t : Fin cfg2.N) (q : Fin 128) :
    iblk2 V c 3 t (ix1 q) = V c main_arg7 (ix1 q) := by
  obtain ⟨-, -, -, -, -, -, e30, -⟩ := blockIndex2 t
  show V c main_arg7 (((cfg2.win 3).blk t).view.emb (ix1 q)) = _
  refine congrArg (V c main_arg7) ?_
  funext a; apply Fin.ext
  match a with
  | ⟨0, _⟩ => show win2_3.index t (0 : Fin 1) * 128 + 1 * q.val = q.val; omega

/-- What point `t` writes back to the first output is rows `2000 t … 2000 t + 1999` of `x · w`. -/
theorem flushed2_4_eq (c : Dev nD) (t : Fin cfg2.N) :
    (dat2 V c).flushed 4 t = ((cfg2.win 4).blk t).view.read (Elt Ideal)
      (Cert.ReferenceIdeal.Stages.matProd (V c main_v27) (V c main_arg5)) := by
  show (cfg2.win 4).cut (grid2.coords t) ((dat2 V c).after 4 t) = _
  rw [after2_4]
  unfold out2_4
  rw [View.canon_unit_zero zeroOffsets]
  simp only [View.ld_unit_zero (S := S2000x128) zeroOffsets, View.ld_unit_zero (S := S128x128) zeroOffsets]
  obtain ⟨-, -, -, -, -, -, -, e40, e41, -⟩ := blockIndex2 t
  have hN : cfg2.N = 25 := N_2
  have ht : t.val < 25 := hN ▸ t.isLt
  funext j
  obtain ⟨p, q, rfl⟩ : ∃ (p : Fin 2000) (q : Fin 128), j = ix2 p q := ⟨j 0, j 1, eq_ix2 j⟩
  have hP : t.val * 2000 + p.val < 50000 := by have := p.isLt; omega
  have ho : ((cfg2.win 4).blk t).view.emb (ix2 p q) = ix2 (⟨t.val * 2000 + p.val, hP⟩ : Fin 50000) q := by
    funext a; apply Fin.ext
    match a with
    | ⟨0, _⟩ => show win2_4.index t (0 : Fin 2) * 2000 + 1 * p.val = t.val * 2000 + p.val; omega
    | ⟨1, _⟩ => show win2_4.index t (1 : Fin 2) * 128 + 1 * q.val = q.val; omega
  show k2_pay2 (iblk2 V c 0 t) (iblk2 V c 1 t) (ix2 p q)
    = Cert.ReferenceIdeal.Stages.matProd (V c main_v27) (V c main_arg5) (((cfg2.win 4).blk t).view.emb (ix2 p q))
  rw [ho, payload2_prod, matProd2_apply]
  exact Finset.sum_congr rfl fun k _ => by rw [rowsIn2 V c t p k hP, weightIn2_1 V c t k q]

/-- What point `t` writes back to the second output is rows `2000 t … 2000 t + 1999` of `x · w' + b`. -/
theorem flushed2_5_eq (c : Dev nD) (t : Fin cfg2.N) :
    (dat2 V c).flushed 5 t = ((cfg2.win 5).blk t).view.read (Elt Ideal)
      (Cert.ReferenceIdeal.Stages.affine (V c main_v27) (V c main_arg6) (V c main_arg7)) := by
  show (cfg2.win 5).cut (grid2.coords t) ((dat2 V c).after 5 t) = _
  rw [after2_5]
  unfold out2_5
  rw [View.canon_unit_zero zeroOffsets]
  simp only [View.ld_unit_zero (S := S2000x128) zeroOffsets, View.ld_unit_zero (S := S128x128) zeroOffsets,
    View.ld_unit_zero (S := S128) zeroOffset2]
  obtain ⟨-, -, -, -, -, -, -, -, -, e50, e51⟩ := blockIndex2 t
  have hN : cfg2.N = 25 := N_2
  have ht : t.val < 25 := hN ▸ t.isLt
  funext j
  obtain ⟨p, q, rfl⟩ : ∃ (p : Fin 2000) (q : Fin 128), j = ix2 p q := ⟨j 0, j 1, eq_ix2 j⟩
  have hP : t.val * 2000 + p.val < 50000 := by have := p.isLt; omega
  have ho : ((cfg2.win 5).blk t).view.emb (ix2 p q) = ix2 (⟨t.val * 2000 + p.val, hP⟩ : Fin 50000) q := by
    funext a; apply Fin.ext
    match a with
    | ⟨0, _⟩ => show win2_5.index t (0 : Fin 2) * 2000 + 1 * p.val = t.val * 2000 + p.val; omega
    | ⟨1, _⟩ => show win2_5.index t (1 : Fin 2) * 128 + 1 * q.val = q.val; omega
  show k2_pay3 (iblk2 V c 0 t) (iblk2 V c 2 t) (iblk2 V c 3 t) (ix2 p q)
    = Cert.ReferenceIdeal.Stages.affine (V c main_v27) (V c main_arg6) (V c main_arg7) (((cfg2.win 5).blk t).view.emb (ix2 p q))
  rw [ho, payload2_affine, affine2_apply, biasIn2 V c t q]
  refine congrArg (· + V c main_arg7 (ix1 q)) ?_
  exact Finset.sum_congr rfl fun k _ => by rw [rowsIn2 V c t p k hP, weightIn2_2 V c t k q]

/-- An index of the first output array is in point `t`'s block iff each coordinate is in the block's range on its axis. -/
theorem memBlock2_4 (t : Fin cfg2.N) (i : S50000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v28_0).slice (win2_4.rect t)).set ↔ _
  rw [View.set_slice_whole, Rect.mem_set_unit]
  exact Iff.rfl

/-- The same for the second output array. -/
theorem memBlock2_5 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v28_1).slice (win2_5.rect t)).set ↔ _
  rw [View.set_slice_whole, Rect.mem_set_unit]
  exact Iff.rfl

/-- The 25 row blocks cover the first output array: row `r` lies in block `r / 2000`. -/
theorem covered2_4 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 25 := N_2
  have ht : (i 0).val / 2000 < cfg2.N := by rw [hN]; omega
  obtain ⟨-, -, -, -, -, -, -, e40, e41, -⟩ := blockIndex2 ⟨(i 0).val / 2000, ht⟩
  refine ⟨⟨(i 0).val / 2000, ht⟩, flush2_4 _, ?_⟩
  rw [memBlock2_4]
  intro a
  match a with
  | ⟨0, _⟩ =>
    show win2_4.index ⟨(i 0).val / 2000, ht⟩ (0 : Fin 2) * 2000 ≤ (i 0).val ∧ (i 0).val < win2_4.index ⟨(i 0).val / 2000, ht⟩ (0 : Fin 2) * 2000 + 2000
    rw [e40]; show (i 0).val / 2000 * 2000 ≤ (i 0).val ∧ (i 0).val < (i 0).val / 2000 * 2000 + 2000; omega
  | ⟨1, _⟩ =>
    show win2_4.index ⟨(i 0).val / 2000, ht⟩ (1 : Fin 2) * 128 ≤ (i 1).val ∧ (i 1).val < win2_4.index ⟨(i 0).val / 2000, ht⟩ (1 : Fin 2) * 128 + 128
    rw [e41]; omega

/-- The 25 row blocks cover the second output array in the same way. -/
theorem covered2_5 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  have ht : (i 0).val / 2000 < cfg2.N := by rw [hN]; omega
  obtain ⟨-, -, -, -, -, -, -, -, -, e50, e51⟩ := blockIndex2 ⟨(i 0).val / 2000, ht⟩
  refine ⟨⟨(i 0).val / 2000, ht⟩, flush2_5 _, ?_⟩
  rw [memBlock2_5]
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win2_5.index ⟨(i 0).val / 2000, ht⟩ (1 : Fin 2) * 128 ≤ (i 1).val ∧ (i 1).val < win2_5.index ⟨(i 0).val / 2000, ht⟩ (1 : Fin 2) * 128 + 128
    rw [e51]; omega

/-- After the launch its first output array is the matrix product `x · w`, whole. -/
theorem final2_4 (c : Dev nD) :
    (dat2 V c).arrAt 4 cfg2.N = Cert.ReferenceIdeal.Stages.matProd (V c main_v27) (V c main_arg5) :=
  (dat2 V c).arrAt_eq_of_cover 4 (Cert.ReferenceIdeal.Stages.matProd (V c main_v27) (V c main_arg5))
    (fun t _ => flushed2_4_eq V c t) covered2_4

/-- After the launch its second output array is `x · w' + b`, the bias row added to every row, whole. -/
theorem final2_5 (c : Dev nD) :
    (dat2 V c).arrAt 5 cfg2.N = Cert.ReferenceIdeal.Stages.affine (V c main_v27) (V c main_arg6) (V c main_arg7) :=
  (dat2 V c).arrAt_eq_of_cover 5 (Cert.ReferenceIdeal.Stages.affine (V c main_v27) (V c main_arg6) (V c main_arg7))
    (fun t _ => flushed2_5_eq V c t) covered2_5

end Cert.KernelIdeal.Hand

end
-- ==== Proof.CombineSecond.lean ====
/-
  The fourth launch (the second of the two that combine a neighbourhood mean with a dense branch): its output array, whole, as
  a function of the two arrays it reads — entry by entry their sum clamped below at zero.  Each of the 25 grid points
  works on 2000 consecutive rows; the points' blocks tile the array.
-/
import proofs.«162967_j10161892623037_1_alg».proof.Proof.Gen.KernelIdeal.Frame
import proofs.«162967_j10161892623037_1_alg».proof.Proof.RowBlocks
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The body's stored value is that clamped sum of its two loaded blocks, entry by entry. -/
theorem payload3_eq (x0 x1 : Vec Ideal S2000x128 .f32) :
    k3_pay1 x0 x1 = fun j => FloatOps.maximumf (F := Ideal) (FloatOps.addf (F := Ideal) (x0 j) (x1 j)) (Scalar.ofBits (F := Ideal) .f32 0x00000000#32) := by
  unfold k3_pay1
  simp only [shapeCast_self]
  rfl

/-- At grid point `t` every window's block is row block `t`, all columns. -/
theorem blockIndex3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point `t` writes back is rows `2000 t … 2000 t + 1999` of the clamped sum of the two arrays the launch reads. -/
theorem flushed3_eq (c : Dev nD) (t : Fin cfg3.N) :
    (dat3 V c).flushed 2 t = ((cfg3.win 2).blk t).view.read (Elt Ideal) (clampedSum (V c main_v43) (V c main_v28_1)) := by
  show (cfg3.win 2).cut (grid3.coords t) ((dat3 V c).after 2 t) = _
  rw [after3_2]
  unfold out3_2
  rw [View.canon_unit_zero zeroOffsets]
  simp only [View.ld_unit_zero (S := S2000x128) zeroOffsets]
  rw [payload3_eq]
  obtain ⟨e0, e1, e2, e3, e4, e5⟩ := blockIndex3 t
  funext j
  show FloatOps.maximumf (F := Ideal) (FloatOps.addf (F := Ideal) (V c main_v43 (((cfg3.win 0).blk t).view.emb j)) (V c main_v28_1 (((cfg3.win 1).blk t).view.emb j))) _
    = FloatOps.maximumf (F := Ideal) (FloatOps.addf (F := Ideal) (V c main_v43 (((cfg3.win 2).blk t).view.emb j)) (V c main_v28_1 (((cfg3.win 2).blk t).view.emb j))) _
  have h0 : ((cfg3.win 0).blk t).view.emb j = ((cfg3.win 2).blk t).view.emb j := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb j = ((cfg3.win 2).blk t).view.emb j := by
    funext a; apply Fin.ext
    match a with
    | ⟨0, _⟩ => show win3_1.index t (0 : Fin 2) * 2000 + 1 * (j 0).val = win3_2.index t (0 : Fin 2) * 2000 + 1 * (j 0).val; omega
    | ⟨1, _⟩ => show win3_1.index t (1 : Fin 2) * 128 + 1 * (j 1).val = win3_2.index t (1 : Fin 2) * 128 + 1 * (j 1).val; omega
  rw [h0, h1]

/-- An index of the output array is in point `t`'s block iff each coordinate is in the block's range on its axis. -/
theorem memBlock3 (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v44).slice (win3_2.rect t)).set ↔ _
  rw [View.set_slice_whole, Rect.mem_set_unit]
  exact Iff.rfl

/-- The 25 row blocks cover the output array: row `r` lies in block `r / 2000`. -/
theorem covered3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 25 := N_3
  have ht : (i 0).val / 2000 < cfg3.N := by rw [hN]; omega
  obtain ⟨e0, e1, e2, e3, e4, e5⟩ := blockIndex3 ⟨(i 0).val / 2000, ht⟩
  refine ⟨⟨(i 0).val / 2000, ht⟩, flush3_2 _, ?_⟩
  rw [memBlock3]
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win3_2.index ⟨(i 0).val / 2000, ht⟩ (1 : Fin 2) * 128 ≤ (i 1).val ∧ (i 1).val < win3_2.index ⟨(i 0).val / 2000, ht⟩ (1 : Fin 2) * 128 + 128
    rw [e5]; omega

/-- After the launch its output array is the clamped sum of the two arrays it read, whole. -/
theorem final3 (c : Dev nD) :
    (dat3 V c).arrAt 2 cfg3.N = clampedSum (V c main_v43) (V c main_v28_1) :=
  (dat3 V c).arrAt_eq_of_cover 2 (clampedSum (V c main_v43) (V c main_v28_1)) (fun t _ => flushed3_eq V c t) covered3

end Cert.KernelIdeal.Hand

end
-- ==== Proof.LibColumnLayout.lean ====
/-
  The layout operations a sum or a minimum taken with its reduced axis KEPT needs, read at an index given by its
  coordinates: a vector cast to a one-column matrix, a one-column matrix broadcast across columns, and a one-row matrix with
  a leading unit axis. (The leading-unit-axis casts and the one-row broadcast are in the library's layout file; these are
  the column forms beside them.) Each statement names both indices by their coordinates over literal extents.
-/
import Idealize.ShloMosaic.Lib.Pipeline.Value
import Idealize.ShloMosaic.Lib.ValueIdx

noncomputable section

namespace Idealize.ShloMosaic.ColumnLayout

open Idealize.ShloMosaic Idealize.ShloMosaic.ValueIdx

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.OutputLayer.lean ====
/-
  The fifth launch (the output layer): its output array, whole, as a function of the three arrays it reads — the
  row-wise log-softmax of the logits x · w + b.  Each of the 25 grid points works on 2000 consecutive rows of x with
  the whole weight matrix and the whole bias row; the points' blocks tile the output array.

  At an entry (P, q) both sides are one formula of row P of the logits, r q' = ∑ k, x (P, k) * w (k, q') + b q':
  with m the fold of max over the row from -inf, the value is (r q - m) - log (∑ q', exp (r q' - m)).  The kernel takes
  the row maximum by a reduction over the second axis from -inf, the reference by a host reduce from -inf and one more
  max against -inf (which changes nothing); the kernel's row sum starts from nothing, the reference's from 0; a change
  of float format is the identity at the ideal values; exp and log are the same interpreted functions on both sides.
-/
import proofs.«162967_j10161892623037_1_alg».proof.Proof.Gen.KernelIdeal.Frame
import proofs.«162967_j10161892623037_1_alg».proof.Proof.Stages
import proofs.«162967_j10161892623037_1_alg».proof.Proof.RowBlocks
import proofs.«162967_j10161892623037_1_alg».proof.Proof.LibDenseLayers
import proofs.«162967_j10161892623037_1_alg».proof.Proof.LibHostMatmul
import proofs.«162967_j10161892623037_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.DenseLayers Idealize.ShloMosaic.ColumnLayout

variable (V : (c : Dev nD) → (b : Ref sig .tc) → Buf (Elt Ideal) ((c : Thread nD τ).loc b))

/-! ## The common formula of a row -/

/-- The log-softmax of one row `r` of 64 logits, at column `q`: with `m` the maximum of the row (a fold of `max` from
    -inf), `(r q - m) - log (∑ q', exp (r q' - m))`. -/
def logSoftmaxRow4 (r : Fin 64 → EReal) (q : Fin 64) : EReal :=
  (r q - (Finset.univ : Finset (Fin 64)).fold max (Ideal.ofBits .f32 0xFF800000#32) r)
    - Ideal.log (∑ q' : Fin 64, Ideal.exp (r q' - (Finset.univ : Finset (Fin 64)).fold max (Ideal.ofBits .f32 0xFF800000#32) r))

/-! ## Reductions over the second axis and the layout operations around them, read at an index -/

/-- A row index `p` with the column `k` put back is `(p, k)`. -/
theorem lift4_ix2 {a b : ℕ} (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

/-- The kernel's maximum over the columns, row by row: a fold of `max` over the row's entries from the accumulator's value. -/
theorem maxOverColumns4_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction (F := Ideal) .maximumf [1] ⟨1, ![a]⟩ src acc h hφ hacc (ix1 p)
      = (Finset.univ : Finset (Fin b)).fold max (Ideal.ofBits φ acc) (fun k => src (ix2 p k)) := by
  rw [Ideal.multiReduction_maximumf_single]
  have e : (src ∘ h.lift (ix1 p)) = fun k : Fin b => src (ix2 p k) := funext fun k => congrArg src (lift4_ix2 h p k)
  rw [e]
  rfl

/-- The kernel's sum over the columns, row by row: the sum of the row's entries. -/
theorem sumOverColumns4_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction (F := Ideal) .add [1] ⟨1, ![a]⟩ src acc h hφ hacc (ix1 p) = ∑ k : Fin b, src (ix2 p k) := by
  rw [Ideal.multiReduction_add_single]
  exact Finset.sum_congr rfl fun k _ => congrArg src (lift4_ix2 h p k)

/-- The host's reduce with a maximum body over the columns, row by row: the same fold from the initial value. -/
theorem hostMaxOverColumns4_apply {a b : ℕ} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (w : BitVec 32) (p : Fin a) :
    Host.reduce FloatOps.maximumf x (constant (F := Ideal) (⟨0, ![]⟩ : Shape) .f32 w) h' hu (ix1 p)
      = (Finset.univ : Finset (Fin b)).fold max (Ideal.ofBits .f32 w) (fun k => x (ix2 p k)) := by
  rw [Host.reduce_eq_fold_single FloatOps.maximumf x _ h' h hu]
  have e : (x ∘ h.lift (ix1 p)) = fun k : Fin b => x (ix2 p k) := funext fun k => congrArg x (lift4_ix2 h p k)
  rw [e]
  rfl

/-- The host's sum over the columns from zero, row by row: the sum of the row's entries. -/
theorem hostSumOverColumns4_apply {a b : ℕ} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd (F := Ideal) x (constant (F := Ideal) (⟨0, ![]⟩ : Shape) .f32 0x00000000#32) h' hu (ix1 p)
      = ∑ k : Fin b, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (lift4_ix2 h p k)

/-- A vector laid out as a column by the host reads, at `(p, u)`, its entry `p`. -/
theorem hostColumn4_apply {α : Type} {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A column broadcast across the columns by the host reads, at `(p, q)`, the column's entry of row `p`. -/
theorem hostColumnAcross4_apply {α : Type} {a b : ℕ} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A vector laid out as a row by the host and broadcast down the rows reads, at `(p, q)`, its entry `q`. -/
theorem hostRowDown4_apply {α : Type} {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (q : Fin b) :
    broadcastInDim ⟨2, ![a, b]⟩ ![0, 1] h2 (broadcastInDim ⟨2, ![1, b]⟩ ![1] h1 v) (ix2 p q) = v (ix1 q) := by
  refine (broadcastInDim_apply ![0, 1] h2 _ (ix2 p q) (ix2 (0 : Fin 1) q) fun ax => ?_).trans ?_
  · match ax with
    | ⟨0, _⟩ => rfl
    | ⟨1, _⟩ =>
      show q.val = if b = 1 then 0 else q.val
      split
      · have := q.isLt; omega
      · rfl
  · refine broadcastInDim_apply ![1] h1 v (ix2 (0 : Fin 1) q) (ix1 q) fun ax => ?_
    match ax with
    | ⟨0, _⟩ =>
      show q.val = if b = 1 then 0 else q.val
      split
      · have := q.isLt; omega
      · rfl

/-- The maximum of -inf and anything is that thing. -/
theorem max_negInf4 (y : EReal) : max (Ideal.ofBits .f32 0xFF800000#32) y = y := by
  simp [Ideal.ofBits, Ideal.ieee]

/-- The exponential and the logarithm, the kernel's and the host's, read at an index: the interpreted functions. -/
theorem exp4_apply {s : Shape} {φ : FTy} (x : FVec Ideal s φ) (i : s.Idx) : exp x i = Ideal.exp (x i) := rfl
theorem log4_apply {s : Shape} {φ : FTy} (x : FVec Ideal s φ) (i : s.Idx) : log x i = Ideal.log (x i) := rfl
theorem hostExp4_apply {s : Shape} {φ : FTy} (x : FVec Ideal s φ) (i : s.Idx) : Host.exp x i = Ideal.exp (x i) := rfl
theorem hostLog4_apply {s : Shape} {φ : FTy} (x : FVec Ideal s φ) (i : s.Idx) : Host.log x i = Ideal.log (x i) := rfl

/-! ## The reference's stages read at an entry -/

/-- The reference's logits at `(P, q)`: `∑ k, x (P, k) * w (k, q) + b q`. -/
theorem refLogits4_apply (x : FVec Ideal Cert.ReferenceIdeal.S50000x128 .f32) (w : FVec Ideal Cert.ReferenceIdeal.S128x64 .f32)
    (b : FVec Ideal Cert.ReferenceIdeal.S64 .f32) (P : Fin 50000) (q : Fin 64) :
    Cert.ReferenceIdeal.Stages.logits x w b (ix2 P q) = (∑ k : Fin 128, x (ix2 P k) * w (ix2 k q)) + b (ix1 q) := by
  unfold Cert.ReferenceIdeal.Stages.logits
  refine (addf_apply _ _ _).trans ?_
  refine congrArg₂ (· + ·) ?_ ?_
  · exact dotGeneral_rowcol_apply _ none x w P q
  · exact hostRowDown4_apply b _ _ P q

/-- The reference's row maximum at row `P`: the fold of `max` over the row from -inf. -/
theorem refRowMax4_apply (l : FVec Ideal Cert.ReferenceIdeal.S50000x64 .f32) (P : Fin 50000) :
    Cert.ReferenceIdeal.Stages.rowMax l (ix1 P)
      = (Finset.univ : Finset (Fin 64)).fold max (Ideal.ofBits .f32 0xFF800000#32) (fun q' => l (ix2 P q')) := by
  unfold Cert.ReferenceIdeal.Stages.rowMax
  refine (maximumf_apply _ _ _).trans ?_
  refine (congrArg₂ max (broadcastInDim_scalar_constant_apply _ _ _) (hostMaxOverColumns4_apply l _ (by decide) _ _ P)).trans ?_
  exact max_negInf4 _

/-- The reference's shifted logits at `(P, q)`: the entry minus its row's maximum. -/
theorem refShifted4_apply (l : FVec Ideal Cert.ReferenceIdeal.S50000x64 .f32) (P : Fin 50000) (q : Fin 64) :
    Cert.ReferenceIdeal.Stages.shifted l (ix2 P q)
      = l (ix2 P q) - (Finset.univ : Finset (Fin 64)).fold max (Ideal.ofBits .f32 0xFF800000#32) (fun q' => l (ix2 P q')) := by
  unfold Cert.ReferenceIdeal.Stages.shifted
  refine (subf_apply _ _ _).trans ?_
  refine congrArg (l (ix2 P q) - ·) ?_
  exact ((hostColumnAcross4_apply _ _ P q).trans (hostColumn4_apply _ _ P 0)).trans (refRowMax4_apply l P)

/-- The reference's row-wise log-softmax at `(P, q)` is the row formula of row `P`. -/
theorem refLogSoftmax4_apply (l : FVec Ideal Cert.ReferenceIdeal.S50000x64 .f32) (P : Fin 50000) (q : Fin 64) :
    Cert.ReferenceIdeal.Stages.logSoftmaxRows l (ix2 P q) = logSoftmaxRow4 (fun q' => l (ix2 P q')) q := by
  unfold Cert.ReferenceIdeal.Stages.logSoftmaxRows logSoftmaxRow4
  refine (subf_apply _ _ _).trans ?_
  refine congrArg₂ (· - ·) (refShifted4_apply l P q) ?_
  refine (hostColumnAcross4_apply _ _ P q).trans ?_
  refine (hostLog4_apply _ _).trans ?_
  refine congrArg Ideal.log ?_
  refine (hostColumn4_apply _ _ P 0).trans ?_
  refine (hostSumOverColumns4_apply _ _ (by decide) _ P).trans ?_
  refine Finset.sum_congr rfl fun q' _ => ?_
  exact (hostExp4_apply _ _).trans (congrArg Ideal.exp (refShifted4_apply l P q'))

/-! ## The kernel's payload read at an entry -/

/-- The block's logits at `(p, q)`: `∑ k, x (p, k) * w (k, q) + b q` (the change of format of the operands is the
    identity, and the product goes into a zero accumulator). -/
theorem blockLogits4_apply (x0 : FVec Ideal S2000x128 .f32) (x1 : FVec Ideal S128x64 .f32) (x2 : FVec Ideal S64 .f32)
    (p : Fin 2000) (q : Fin 64) :
    addf (matmul dot_S2000x128_S128x64_S2000x64_1_0_0_1_n_n none
          (truncf .bf16 (shapeCast S2000x128 x0 shapeCasts_S2000x128_S2000x128) bitsLt_bf16_f32) (truncf .bf16 x1 bitsLt_bf16_f32)
          (constant (F := Ideal) S2000x64 .f32 0x00000000#32))
        (broadcastTo S2000x64 (shapeCast S1x64 x2 shapeCasts_S64_S1x64) broadcasts_S1x64_S2000x64) (ix2 p q)
      = (∑ k : Fin 128, x0 (ix2 p k) * x1 (ix2 k q)) + x2 (ix1 q) := by
  refine (addf_apply _ _ _).trans ?_
  refine congrArg₂ (· + ·) ?_ ?_
  · rw [shapeCast_self]
    exact matmul_rowcol_zero_apply _ none _ _ p q
  · exact (broadcastTo_1b_ab_apply _ _ p q).trans (shapeCast_a_1a_apply x2 _ 0 q)

/-- From a block of logits `L` the body's stored value at `(p, q)` is the row formula of row `p` of `L`. -/
theorem blockLogSoftmax4_apply (L : FVec Ideal S2000x64 .f32) (p : Fin 2000) (q : Fin 64) :
    subf (subf L (broadcastTo S2000x64 (shapeCast S2000x1 (multiReduction (F := Ideal) .maximumf [1] S2000 L 0xFF800000#32 reduces_S2000x64_S2000 (.inl rfl) rfl) shapeCasts_S2000_S2000x1) broadcasts_S2000x1_S2000x64))
        (broadcastTo S2000x64 (log (shapeCast S2000x1 (multiReduction (F := Ideal) .add [1] S2000
            (exp (subf L (broadcastTo S2000x64 (shapeCast S2000x1 (multiReduction (F := Ideal) .maximumf [1] S2000 L 0xFF800000#32 reduces_S2000x64_S2000 (.inl rfl) rfl) shapeCasts_S2000_S2000x1) broadcasts_S2000x1_S2000x64)))
            0x00000000#32 reduces_S2000x64_S2000 (.inl rfl) rfl) shapeCasts_S2000_S2000x1)) broadcasts_S2000x1_S2000x64) (ix2 p q)
      = logSoftmaxRow4 (fun q' => L (ix2 p q')) q := by
  have hm : ∀ q'' : Fin 64, broadcastTo S2000x64 (shapeCast S2000x1 (multiReduction (F := Ideal) .maximumf [1] S2000 L 0xFF800000#32 reduces_S2000x64_S2000 (.inl rfl) rfl) shapeCasts_S2000_S2000x1) broadcasts_S2000x1_S2000x64 (ix2 p q'')
      = (Finset.univ : Finset (Fin 64)).fold max (Ideal.ofBits .f32 0xFF800000#32) (fun q' => L (ix2 p q')) := fun q'' =>
    ((broadcastTo_a1_ab_apply _ _ p q'').trans (shapeCast_a_a1_apply _ _ p 0)).trans
      (maxOverColumns4_apply L 0xFF800000#32 reduces_S2000x64_S2000 (.inl rfl) rfl p)
  unfold logSoftmaxRow4
  refine (subf_apply _ _ _).trans ?_
  refine congrArg₂ (· - ·) ((subf_apply _ _ _).trans (congrArg (L (ix2 p q) - ·) (hm q))) ?_
  refine (broadcastTo_a1_ab_apply _ _ p q).trans ?_
  refine (log4_apply _ _).trans ?_
  refine congrArg Ideal.log ?_
  refine (shapeCast_a_a1_apply _ _ p 0).trans ?_
  refine (sumOverColumns4_apply _ 0x00000000#32 reduces_S2000x64_S2000 (.inl rfl) rfl p).trans ?_
  refine Finset.sum_congr rfl fun q' _ => ?_
  exact (exp4_apply _ _).trans (congrArg Ideal.exp ((subf_apply _ _ _).trans (congrArg (L (ix2 p q') - ·) (hm q'))))

/-- The body's stored value at `(p, q)`: the row formula of row `p` of the block's logits. -/
theorem payload4_apply (x0 : FVec Ideal S2000x128 .f32) (x1 : FVec Ideal S128x64 .f32) (x2 : FVec Ideal S64 .f32)
    (p : Fin 2000) (q : Fin 64) :
    k4_pay1 (F := Ideal) x0 x1 x2 (ix2 p q)
      = logSoftmaxRow4 (fun q' => (∑ k : Fin 128, x0 (ix2 p k) * x1 (ix2 k q')) + x2 (ix1 q')) q := by
  refine Eq.trans (b := logSoftmaxRow4 (fun q' =>
      addf (matmul dot_S2000x128_S128x64_S2000x64_1_0_0_1_n_n none
          (truncf .bf16 (shapeCast S2000x128 x0 shapeCasts_S2000x128_S2000x128) bitsLt_bf16_f32) (truncf .bf16 x1 bitsLt_bf16_f32)
          (constant (F := Ideal) S2000x64 .f32 0x00000000#32))
        (broadcastTo S2000x64 (shapeCast S1x64 x2 shapeCasts_S64_S1x64) broadcasts_S1x64_S2000x64) (ix2 p q')) q) ?_ ?_
  · exact blockLogSoftmax4_apply _ p q
  · exact congrArg (fun r => logSoftmaxRow4 r q) (funext fun q' => blockLogits4_apply x0 x1 x2 p q')

/-! ## From the blocks to the array -/

theorem zeroOffsets4 : (![0] : Fin 1 → Nat) = fun _ => 0 := funext fun a => by fin_cases a; rfl

/-- At grid point `t` the block of the rows' window and of the output window is row block `t`, all columns; the block
    of the weights' and of the biases' window is the whole array. -/
theorem blockIndex4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- What point `t` writes back is rows `2000 t … 2000 t + 1999` of the row-wise log-softmax of the logits of the three
    arrays the launch reads. -/
theorem flushed4_eq (c : Dev nD) (t : Fin cfg4.N) :
    (dat4 V c).flushed 3 t = ((cfg4.win 3).blk t).view.read (Elt Ideal)
      (Cert.ReferenceIdeal.Stages.logSoftmaxRows (Cert.ReferenceIdeal.Stages.logits (V c main_v44) (V c main_arg8) (V c main_arg9))) := by
  show (cfg4.win 3).cut (grid4.coords t) ((dat4 V c).after 3 t) = _
  rw [after4_3]
  unfold out4_3
  rw [View.canon_unit_zero zeroOffsets]
  simp only [View.ld_unit_zero (S := S2000x128) zeroOffsets, View.ld_unit_zero (S := S128x64) zeroOffsets,
    View.ld_unit_zero (S := S64) zeroOffsets4]
  obtain ⟨e0, e1, e2, e3, e4, e5, e6⟩ := blockIndex4 t
  have hN : cfg4.N = 25 := N_4
  have ht : t.val < 25 := Nat.lt_of_lt_of_eq t.isLt hN
  funext j
  obtain ⟨p, q, rfl⟩ : ∃ (p : Fin 2000) (q : Fin 64), j = ix2 p q := ⟨j 0, j 1, eq_ix2 j⟩
  refine (payload4_apply _ _ _ p q).trans ?_
  have hP : t.val * 2000 + p.val < 50000 := by have := p.isLt; omega
  have hemb : ((cfg4.win 3).blk t).view.emb (ix2 p q) = ix2 (⟨t.val * 2000 + p.val, hP⟩ : Fin 50000) q := by
    funext a; apply Fin.ext
    match a with
    | ⟨0, _⟩ => show win4_3.index t (0 : Fin 2) * 2000 + 1 * p.val = t.val * 2000 + p.val; omega
    | ⟨1, _⟩ => show win4_3.index t (1 : Fin 2) * 64 + 1 * q.val = q.val; omega
  refine Eq.trans ?_ (congrArg (Cert.ReferenceIdeal.Stages.logSoftmaxRows (Cert.ReferenceIdeal.Stages.logits (V c main_v44) (V c main_arg8) (V c main_arg9))) hemb).symm
  refine Eq.trans ?_ (refLogSoftmax4_apply _ _ q).symm
  refine congrArg (fun r => logSoftmaxRow4 r q) (funext fun q' => ?_)
  refine Eq.trans ?_ (refLogits4_apply _ _ _ _ q').symm
  refine congrArg₂ (· + ·) (Finset.sum_congr rfl fun k _ => congrArg₂ (· * ·) ?_ ?_) ?_
  · show V c main_v44 (((cfg4.win 0).blk t).view.emb (ix2 p k)) = V c main_v44 (ix2 (⟨t.val * 2000 + p.val, hP⟩ : Fin 50000) k)
    refine congrArg (V c main_v44) ?_
    funext a; apply Fin.ext
    match a with
    | ⟨0, _⟩ => show win4_0.index t (0 : Fin 2) * 2000 + 1 * p.val = t.val * 2000 + p.val; omega
    | ⟨1, _⟩ => show win4_0.index t (1 : Fin 2) * 128 + 1 * k.val = k.val; omega
  · show V c main_arg8 (((cfg4.win 1).blk t).view.emb (ix2 k q')) = V c main_arg8 (ix2 k q')
    refine congrArg (V c main_arg8) ?_
    funext a; apply Fin.ext
    match a with
    | ⟨0, _⟩ => show win4_1.index t (0 : Fin 2) * 128 + 1 * k.val = k.val; omega
    | ⟨1, _⟩ => show win4_1.index t (1 : Fin 2) * 64 + 1 * q'.val = q'.val; omega
  · show V c main_arg9 (((cfg4.win 2).blk t).view.emb (ix1 q')) = V c main_arg9 (ix1 q')
    refine congrArg (V c main_arg9) ?_
    funext a; apply Fin.ext
    match a with
    | ⟨0, _⟩ => show win4_2.index t (0 : Fin 1) * 64 + 1 * q'.val = q'.val; omega

/-- An index of the output array is in point `t`'s block iff each coordinate is in the block's range on its axis. -/
theorem memBlock4 (t : Fin cfg4.N) (i : S50000x64.Idx) :
    i ∈ ((cfg4.win 3).blk t).view.set ↔ ∀ a : Fin 2, win4_3.index t a * S2000x64.size a ≤ (i a).val ∧ (i a).val < win4_3.index t a * S2000x64.size a + S2000x64.size a := by
  show i ∈ ((View.whole main_v45).slice (win4_3.rect t)).set ↔ _
  rw [View.set_slice_whole, Rect.mem_set_unit]
  exact Iff.rfl

/-- The 25 row blocks cover the output array: row `r` lies in block `r / 2000`. -/
theorem covered4 (i : S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 25 := N_4
  have ht : (i 0).val / 2000 < cfg4.N := by rw [hN]; omega
  obtain ⟨e0, e1, e2, e3, e4, e5, e6⟩ := blockIndex4 ⟨(i 0).val / 2000, ht⟩
  refine ⟨⟨(i 0).val / 2000, ht⟩, flush4_3 _, ?_⟩
  rw [memBlock4]
  intro a
  match a with
  | ⟨0, _⟩ =>
    show win4_3.index ⟨(i 0).val / 2000, ht⟩ (0 : Fin 2) * 2000 ≤ (i 0).val ∧ (i 0).val < win4_3.index ⟨(i 0).val / 2000, ht⟩ (0 : Fin 2) * 2000 + 2000
    rw [e5]; show (i 0).val / 2000 * 2000 ≤ (i 0).val ∧ (i 0).val < (i 0).val / 2000 * 2000 + 2000; omega
  | ⟨1, _⟩ =>
    show win4_3.index ⟨(i 0).val / 2000, ht⟩ (1 : Fin 2) * 64 ≤ (i 1).val ∧ (i 1).val < win4_3.index ⟨(i 0).val / 2000, ht⟩ (1 : Fin 2) * 64 + 64
    rw [e6]; omega

/-- After the launch its output array is the row-wise log-softmax of the logits `x · w + b` of the three arrays it read, whole. -/
theorem final4_3 (c : Dev nD) :
    (dat4 V c).arrAt 3 cfg4.N = Cert.ReferenceIdeal.Stages.logSoftmaxRows (Cert.ReferenceIdeal.Stages.logits (V c main_v44) (V c main_arg8) (V c main_arg9)) :=
  (dat4 V c).arrAt_eq_of_cover 3 (Cert.ReferenceIdeal.Stages.logSoftmaxRows (Cert.ReferenceIdeal.Stages.logits (V c main_v44) (V c main_arg8) (V c main_arg9)))
    (fun t _ => flushed4_eq V c t) covered4

end Cert.KernelIdeal.Hand

end
-- ==== Proof.KernelValue.lean ====
/-
  The idealized kernel program's result as the network of its arguments.

  The buffer contents are followed boundary by boundary through the program: the first stretch of host operations leaves
  the endpoints (self-loops appended) and the degrees; the first launch x·w and x·w' + b; the second stretch the
  neighbourhood mean of x·w; the second launch their sum clamped below at zero — the first layer's output —; the third
  launch, the third stretch and the fourth launch do the same for the second layer; the fifth launch the row-wise
  log-softmax of the output layer's logits.  Whatever a segment does not write it leaves as it found it.
-/
import proofs.«162967_j10161892623037_1_alg».proof.Proof.KernelRun
import proofs.«162967_j10161892623037_1_alg».proof.Proof.HostFirst
import proofs.«162967_j10161892623037_1_alg».proof.Proof.HostSecond
import proofs.«162967_j10161892623037_1_alg».proof.Proof.HostThird
import proofs.«162967_j10161892623037_1_alg».proof.Proof.DenseFirst
import proofs.«162967_j10161892623037_1_alg».proof.Proof.CombineFirst
import proofs.«162967_j10161892623037_1_alg».proof.Proof.DenseSecond
import proofs.«162967_j10161892623037_1_alg».proof.Proof.CombineSecond
import proofs.«162967_j10161892623037_1_alg».proof.Proof.OutputLayer

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Cert.ReferenceIdeal.Stages

variable (m : (ℓ : Loc nD τ sig) → Buf (Elt Ideal) ℓ) (ρ : Dev nD → PrngReg)

/-- The sum of two arrays clamped below at zero is the reference's clamp of their sum. -/
theorem clampedSum_eq (a b : S50000x128.Idx → EReal) : clampedSum a b = relu (addf (F := Ideal) a b) := by
  funext i
  rfl

/-! ## The endpoints and the degrees, carried from the first stretch to where they are read -/

theorem W2_src (c : Dev nD) : W2 m ρ c (Proc.devRef .tc main_v3) = srcIdx (m ((c : Thread nD τ).loc main_arg1)) :=
  (W2_of_ne m ρ c main_v3 (by decide)).trans (W1_src m ρ c)
theorem W2_dst (c : Dev nD) : W2 m ρ c (Proc.devRef .tc main_v6) = dstIdx (m ((c : Thread nD τ).loc main_arg1)) :=
  (W2_of_ne m ρ c main_v6 (by decide)).trans (W1_dst m ρ c)
theorem W2_degree (c : Dev nD) : W2 m ρ c (Proc.devRef .tc main_v10) = degree (dstIdx (m ((c : Thread nD τ).loc main_arg1))) :=
  (W2_of_ne m ρ c main_v10 (by decide)).trans (W1_degree m ρ c)

theorem W5_src (c : Dev nD) : W5 m ρ c (Proc.devRef .tc main_v3) = srcIdx (m ((c : Thread nD τ).loc main_arg1)) :=
  (W5_of_ne m ρ c main_v3 (by decide)).trans ((W4_of_ne m ρ c main_v3 (by decide)).trans ((W3_src m ρ c).trans (W2_src m ρ c)))
theorem W5_dst (c : Dev nD) : W5 m ρ c (Proc.devRef .tc main_v6) = dstIdx (m ((c : Thread nD τ).loc main_arg1)) :=
  (W5_of_ne m ρ c main_v6 (by decide)).trans ((W4_of_ne m ρ c main_v6 (by decide)).trans ((W3_dst m ρ c).trans (W2_dst m ρ c)))
theorem W5_degree (c : Dev nD) : W5 m ρ c (Proc.devRef .tc main_v10) = degree (dstIdx (m ((c : Thread nD τ).loc main_arg1))) :=
  (W5_of_ne m ρ c main_v10 (by decide)).trans ((W4_of_ne m ρ c main_v10 (by decide)).trans ((W3_degree m ρ c).trans (W2_degree m ρ c)))

/-! ## The later arguments, carried to the launch that reads them -/

theorem W4_arg5 (c : Dev nD) : W4 m ρ c (Proc.devRef .tc main_arg5) = m ((c : Thread nD τ).loc main_arg5) :=
  (W4_of_ne m ρ c main_arg5 (by decide)).trans ((W3_arg5 m ρ c).trans ((W2_of_ne m ρ c main_arg5 (by decide)).trans (W1_arg5 m ρ c)))
theorem W4_arg6 (c : Dev nD) : W4 m ρ c (Proc.devRef .tc main_arg6) = m ((c : Thread nD τ).loc main_arg6) :=
  (W4_of_ne m ρ c main_arg6 (by decide)).trans ((W3_arg6 m ρ c).trans ((W2_of_ne m ρ c main_arg6 (by decide)).trans (W1_arg6 m ρ c)))
theorem W4_arg7 (c : Dev nD) : W4 m ρ c (Proc.devRef .tc main_arg7) = m ((c : Thread nD τ).loc main_arg7) :=
  (W4_of_ne m ρ c main_arg7 (by decide)).trans ((W3_arg7 m ρ c).trans ((W2_of_ne m ρ c main_arg7 (by decide)).trans (W1_arg7 m ρ c)))
theorem W7_arg8 (c : Dev nD) : W7 m ρ c (Proc.devRef .tc main_arg8) = m ((c : Thread nD τ).loc main_arg8) :=
  (W7_of_ne m ρ c main_arg8 (by decide)).trans ((W6_arg8 m ρ c).trans ((W5_of_ne m ρ c main_arg8 (by decide)).trans
    ((W4_of_ne m ρ c main_arg8 (by decide)).trans ((W3_arg8 m ρ c).trans ((W2_of_ne m ρ c main_arg8 (by decide)).trans (W1_arg8 m ρ c))))))
theorem W7_arg9 (c : Dev nD) : W7 m ρ c (Proc.devRef .tc main_arg9) = m ((c : Thread nD τ).loc main_arg9) :=
  (W7_of_ne m ρ c main_arg9 (by decide)).trans ((W6_arg9 m ρ c).trans ((W5_of_ne m ρ c main_arg9 (by decide)).trans
    ((W4_of_ne m ρ c main_arg9 (by decide)).trans ((W3_arg9 m ρ c).trans ((W2_of_ne m ρ c main_arg9 (by decide)).trans (W1_arg9 m ρ c))))))

/-! ## The first layer -/

/-- After the first launch: x·w. -/
theorem W2_prod (c : Dev nD) :
    W2 m ρ c (Proc.devRef .tc main_v11_0) = matProd (m ((c : Thread nD τ).loc main_arg0)) (m ((c : Thread nD τ).loc main_arg2)) := by
  refine (W2_arr m ρ c 4).trans ((final0_4 (V1 m ρ) c).trans ?_)
  rw [show V1 m ρ c main_arg0 = m ((c : Thread nD τ).loc main_arg0) from W1_arg0 m ρ c,
    show V1 m ρ c main_arg2 = m ((c : Thread nD τ).loc main_arg2) from W1_arg2 m ρ c]

/-- After the first launch: x·w' + b. -/
theorem W2_dense (c : Dev nD) :
    W2 m ρ c (Proc.devRef .tc main_v11_1)
      = affine (m ((c : Thread nD τ).loc main_arg0)) (m ((c : Thread nD τ).loc main_arg3)) (m ((c : Thread nD τ).loc main_arg4)) := by
  refine (W2_arr m ρ c 5).trans ((final0_5 (V1 m ρ) c).trans ?_)
  rw [show V1 m ρ c main_arg0 = m ((c : Thread nD τ).loc main_arg0) from W1_arg0 m ρ c,
    show V1 m ρ c main_arg3 = m ((c : Thread nD τ).loc main_arg3) from W1_arg3 m ρ c,
    show V1 m ρ c main_arg4 = m ((c : Thread nD τ).loc main_arg4) from W1_arg4 m ρ c]

/-- The first layer's output, as the third launch finds it. -/
def hidden (c : Dev nD) : FVec Ideal Cert.ReferenceIdeal.S50000x128 .f32 :=
  layer (m ((c : Thread nD τ).loc main_arg0)) (srcIdx (m ((c : Thread nD τ).loc main_arg1))) (dstIdx (m ((c : Thread nD τ).loc main_arg1)))
    (degree (dstIdx (m ((c : Thread nD τ).loc main_arg1)))) (m ((c : Thread nD τ).loc main_arg2)) (m ((c : Thread nD τ).loc main_arg3))
    (m ((c : Thread nD τ).loc main_arg4))

/-- After the second launch: the first layer's output. -/
theorem W4_hidden (c : Dev nD) : W4 m ρ c (Proc.devRef .tc main_v27) = hidden m c := by
  refine (W4_arr m ρ c 2).trans ((final1 (V3 m ρ) c).trans ?_)
  rw [show V3 m ρ c main_v26 = _ from W3_mean m ρ c, show V3 m ρ c main_v11_1 = _ from W3_dense m ρ c,
    W2_prod, W2_src, W2_dst, W2_degree, W2_dense, clampedSum_eq]
  rfl

/-! ## The second layer -/

/-- After the third launch: h·w. -/
theorem W5_prod (c : Dev nD) :
    W5 m ρ c (Proc.devRef .tc main_v28_0) = matProd (hidden m c) (m ((c : Thread nD τ).loc main_arg5)) := by
  refine (W5_arr m ρ c 4).trans ((final2_4 (V4 m ρ) c).trans ?_)
  rw [show V4 m ρ c main_v27 = _ from W4_hidden m ρ c,
    show V4 m ρ c main_arg5 = m ((c : Thread nD τ).loc main_arg5) from W4_arg5 m ρ c]

/-- After the third launch: h·w' + b. -/
theorem W5_dense (c : Dev nD) :
    W5 m ρ c (Proc.devRef .tc main_v28_1)
      = affine (hidden m c) (m ((c : Thread nD τ).loc main_arg6)) (m ((c : Thread nD τ).loc main_arg7)) := by
  refine (W5_arr m ρ c 5).trans ((final2_5 (V4 m ρ) c).trans ?_)
  rw [show V4 m ρ c main_v27 = _ from W4_hidden m ρ c,
    show V4 m ρ c main_arg6 = m ((c : Thread nD τ).loc main_arg6) from W4_arg6 m ρ c,
    show V4 m ρ c main_arg7 = m ((c : Thread nD τ).loc main_arg7) from W4_arg7 m ρ c]

/-- The second layer's output, as the fifth launch finds it. -/
def hidden2 (c : Dev nD) : FVec Ideal Cert.ReferenceIdeal.S50000x128 .f32 :=
  layer (hidden m c) (srcIdx (m ((c : Thread nD τ).loc main_arg1))) (dstIdx (m ((c : Thread nD τ).loc main_arg1)))
    (degree (dstIdx (m ((c : Thread nD τ).loc main_arg1)))) (m ((c : Thread nD τ).loc main_arg5)) (m ((c : Thread nD τ).loc main_arg6))
    (m ((c : Thread nD τ).loc main_arg7))

/-- After the fourth launch: the second layer's output. -/
theorem W7_hidden2 (c : Dev nD) : W7 m ρ c (Proc.devRef .tc main_v44) = hidden2 m c := by
  refine (W7_arr m ρ c 2).trans ((final3 (V6 m ρ) c).trans ?_)
  rw [show V6 m ρ c main_v43 = _ from W6_mean m ρ c, show V6 m ρ c main_v28_1 = _ from W6_dense m ρ c,
    W5_prod, W5_src, W5_dst, W5_degree, W5_dense, clampedSum_eq]
  rfl

/-! ## The output layer, and the run -/

/-- After the fifth launch the result buffer holds the network of the arguments. -/
theorem W8_result (c : Dev nD) :
    W8 m ρ c (Proc.devRef .tc main_v45)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  refine (W8_arr m ρ c 3).trans ((final4_3 (V7 m ρ) c).trans ?_)
  rw [show V7 m ρ c main_v44 = _ from W7_hidden2 m ρ c,
    show V7 m ρ c main_arg8 = m ((c : Thread nD τ).loc main_arg8) from W7_arg8 m ρ c,
    show V7 m ρ c main_arg9 = m ((c : Thread nD τ).loc main_arg9) from W7_arg9 m ρ c]
  rfl

/-- The run of the idealized kernel program: the result is the network of the arguments, the arguments are unchanged. -/
theorem run : θ_run defs (onTc (τ := τ) (main (F := Ideal))) ⟨m, fun _ => 0, ρ⟩ (fun r => ∀ c : Dev nD,
      r.2.mem ((c.tc : Thread nD τ).loc main_v45)
        = network (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (W8_result m ρ c), (h c).2⟩) (run_result m ρ)

end Cert.KernelIdeal.Hand

end
-- ==== Proof.RefOps.lean ====
/-
  The reference program's @main as its 94 host operations in a row (a called function's operations stand in its call's
  place), cut into three stretches: the first graph convolution layer (41 operations), the second (34), the output layer
  with its row-wise log-softmax (19).  A fold over two stretches in a row is the second's fold over the first's.
-/
import proofs.«162967_j10161892623037_1_alg».proof.Proof.Gen.ReferenceIdeal
import proofs.«162967_j10161892623037_1_alg».proof.Proof.Network
import Idealize.ShloMosaic.Lib.StableHlo.Run

noncomputable section

namespace Cert.ReferenceIdeal.Hand

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- The first layer's operations (a called function's operations stand in its call's place). -/
abbrev opsA : List (HloOp τ sig (Elt F)) :=
  [ nullary main_v0 (iotaInDim S50000 32 0),
    unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    reshape main_v1 main_v2 rfl shapeCasts_S1x600000_S600000,
    binary main_v2 main_v0 main_v3 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    reshape main_v4 main_v5 rfl shapeCasts_S1x600000_S600000,
    binary main_v5 main_v0 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    binary main_arg0 main_arg2 main_v7 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c (constantI S_ 32 0#32),
    unary main_c main_v8 (broadcastInDim S650000 ![] bcast_S_S650000 : (⟨S_, .i32⟩ : BufTy).Contents (Elt F) → (⟨S650000, .i32⟩ : BufTy).Contents (Elt F)),
    binary main_v3 main_v8 main_v9 (cmpi .slt : (⟨S650000, .i32⟩ : BufTy).Contents (Elt F) → (⟨S650000, .i32⟩ : BufTy).Contents (Elt F) → (⟨S650000, .i1⟩ : BufTy).Contents (Elt F)),
    nullary main_c_0 (constantI S_ 32 50000#32),
    unary main_c_0 main_v10 (broadcastInDim S650000 ![] bcast_S_S650000 : (⟨S_, .i32⟩ : BufTy).Contents (Elt F) → (⟨S650000, .i32⟩ : BufTy).Contents (Elt F)),
    binary main_v3 main_v10 main_v11 (addi : (⟨S650000, .i32⟩ : BufTy).Contents (Elt F) → (⟨S650000, .i32⟩ : BufTy).Contents (Elt F) → (⟨S650000, .i32⟩ : BufTy).Contents (Elt F)),
    ternary main_v9 main_v11 main_v3 main_v12 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v12 main_v13 (broadcastInDim S650000x1 ![0] bcast_S650000_S650000x1_0 : (⟨S650000, .i32⟩ : BufTy).Contents (Elt F) → (⟨S650000x1, .i32⟩ : BufTy).Contents (Elt F)),
    binary main_v7 main_v13 main_v14 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    nullary main_cst (constant S_ .f32 0x00000000#32),
    unary main_cst main_v15 (broadcastInDim S50000x128 ![] bcast_S_S50000x128 : (⟨S_, .f32⟩ : BufTy).Contents (Elt F) → (⟨S50000x128, .f32⟩ : BufTy).Contents (Elt F)),
    unary main_v6 main_v16 (broadcastInDim S650000x1 ![0] bcast_S650000_S650000x1_0 : (⟨S650000, .i32⟩ : BufTy).Contents (Elt F) → (⟨S650000x1, .i32⟩ : BufTy).Contents (Elt F)),
    ternary main_v15 main_v16 main_v14 main_v17 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    nullary main_cst_1 (constant S_ .f32 0x3F800000#32),
    unary main_cst_1 main_v18 (broadcastInDim S650000 ![] bcast_S_S650000 : (⟨S_, .f32⟩ : BufTy).Contents (Elt F) → (⟨S650000, .f32⟩ : BufTy).Contents (Elt F)),
    nullary main_cst_2 (constant S_ .f32 0x00000000#32),
    unary main_cst_2 main_v19 (broadcastInDim S50000 ![] bcast_S_S50000 : (⟨S_, .f32⟩ : BufTy).Contents (Elt F) → (⟨S50000, .f32⟩ : BufTy).Contents (Elt F)),
    unary main_v6 main_v20 (broadcastInDim S650000x1 ![0] bcast_S650000_S650000x1_0 : (⟨S650000, .i32⟩ : BufTy).Contents (Elt F) → (⟨S650000x1, .i32⟩ : BufTy).Contents (Elt F)),
    ternary main_v19 main_v20 main_v18 main_v21 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_3 (constant S_ .f32 0x3F800000#32),
    unary main_cst_3 main_v22 (broadcastInDim S50000 ![] bcast_S_S50000 : (⟨S_, .f32⟩ : BufTy).Contents (Elt F) → (⟨S50000, .f32⟩ : BufTy).Contents (Elt F)),
    binary main_v21 main_v22 main_v23 (maximumf : (⟨S50000, .f32⟩ : BufTy).Contents (Elt F) → (⟨S50000, .f32⟩ : BufTy).Contents (Elt F) → (⟨S50000, .f32⟩ : BufTy).Contents (Elt F)),
    unary main_v23 main_v24 (broadcastInDim S50000x1 ![0] bcast_S50000_S50000x1_0 : (⟨S50000, .f32⟩ : BufTy).Contents (Elt F) → (⟨S50000x1, .f32⟩ : BufTy).Contents (Elt F)),
    unary main_v24 main_v25 (broadcastInDim S50000x128 ![0, 1] bcast_S50000x1_S50000x128_0_1 : (⟨S50000x1, .f32⟩ : BufTy).Contents (Elt F) → (⟨S50000x128, .f32⟩ : BufTy).Contents (Elt F)),
    binary main_v17 main_v25 main_v26 (Host.divf : (⟨S50000x128, .f32⟩ : BufTy).Contents (Elt F) → (⟨S50000x128, .f32⟩ : BufTy).Contents (Elt F) → (⟨S50000x128, .f32⟩ : BufTy).Contents (Elt F)),
    binary main_arg0 main_arg3 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v28 (broadcastInDim S1x128 ![1] bcast_S128_S1x128_1 : (⟨S128, .f32⟩ : BufTy).Contents (Elt F) → (⟨S1x128, .f32⟩ : BufTy).Contents (Elt F)),
    unary main_v28 main_v29 (broadcastInDim S50000x128 ![0, 1] bcast_S1x128_S50000x128_0_1 : (⟨S1x128, .f32⟩ : BufTy).Contents (Elt F) → (⟨S50000x128, .f32⟩ : BufTy).Contents (Elt F)),
    binary main_v27 main_v29 main_v30 (addf : (⟨S50000x128, .f32⟩ : BufTy).Contents (Elt F) → (⟨S50000x128, .f32⟩ : BufTy).Contents (Elt F) → (⟨S50000x128, .f32⟩ : BufTy).Contents (Elt F)),
    binary main_v26 main_v30 main_v31 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v31) (TRef.of (T := ⟨S50000x128, .f32⟩) main_call0_v0) (TRef.of (T := ⟨S50000x128, .f32⟩) main_v32) maximumf ]

/-- The second layer's operations. -/
abbrev opsB : List (HloOp τ sig (Elt F)) :=
  [ binary main_v32 main_arg5 main_v33 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_4 (constantI S_ 32 0#32),
    unary main_c_4 main_v34 (broadcastInDim S650000 ![] bcast_S_S650000 : (⟨S_, .i32⟩ : BufTy).Contents (Elt F) → (⟨S650000, .i32⟩ : BufTy).Contents (Elt F)),
    binary main_v3 main_v34 main_v35 (cmpi .slt : (⟨S650000, .i32⟩ : BufTy).Contents (Elt F) → (⟨S650000, .i32⟩ : BufTy).Contents (Elt F) → (⟨S650000, .i1⟩ : BufTy).Contents (Elt F)),
    nullary main_c_5 (constantI S_ 32 50000#32),
    unary main_c_5 main_v36 (broadcastInDim S650000 ![] bcast_S_S650000 : (⟨S_, .i32⟩ : BufTy).Contents (Elt F) → (⟨S650000, .i32⟩ : BufTy).Contents (Elt F)),
    binary main_v3 main_v36 main_v37 (addi : (⟨S650000, .i32⟩ : BufTy).Contents (Elt F) → (⟨S650000, .i32⟩ : BufTy).Contents (Elt F) → (⟨S650000, .i32⟩ : BufTy).Contents (Elt F)),
    ternary main_v35 main_v37 main_v3 main_v38 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v38 main_v39 (broadcastInDim S650000x1 ![0] bcast_S650000_S650000x1_0 : (⟨S650000, .i32⟩ : BufTy).Contents (Elt F) → (⟨S650000x1, .i32⟩ : BufTy).Contents (Elt F)),
    binary main_v33 main_v39 main_v40 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    nullary main_cst_6 (constant S_ .f32 0x00000000#32),
    unary main_cst_6 main_v41 (broadcastInDim S50000x128 ![] bcast_S_S50000x128 : (⟨S_, .f32⟩ : BufTy).Contents (Elt F) → (⟨S50000x128, .f32⟩ : BufTy).Contents (Elt F)),
    unary main_v6 main_v42 (broadcastInDim S650000x1 ![0] bcast_S650000_S650000x1_0 : (⟨S650000, .i32⟩ : BufTy).Contents (Elt F) → (⟨S650000x1, .i32⟩ : BufTy).Contents (Elt F)),
    ternary main_v41 main_v42 main_v40 main_v43 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    nullary main_cst_7 (constant S_ .f32 0x3F800000#32),
    unary main_cst_7 main_v44 (broadcastInDim S650000 ![] bcast_S_S650000 : (⟨S_, .f32⟩ : BufTy).Contents (Elt F) → (⟨S650000, .f32⟩ : BufTy).Contents (Elt F)),
    nullary main_cst_8 (constant S_ .f32 0x00000000#32),
    unary main_cst_8 main_v45 (broadcastInDim S50000 ![] bcast_S_S50000 : (⟨S_, .f32⟩ : BufTy).Contents (Elt F) → (⟨S50000, .f32⟩ : BufTy).Contents (Elt F)),
    unary main_v6 main_v46 (broadcastInDim S650000x1 ![0] bcast_S650000_S650000x1_0 : (⟨S650000, .i32⟩ : BufTy).Contents (Elt F) → (⟨S650000x1, .i32⟩ : BufTy).Contents (Elt F)),
    ternary main_v45 main_v46 main_v44 main_v47 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_9 (constant S_ .f32 0x3F800000#32),
    unary main_cst_9 main_v48 (broadcastInDim S50000 ![] bcast_S_S50000 : (⟨S_, .f32⟩ : BufTy).Contents (Elt F) → (⟨S50000, .f32⟩ : BufTy).Contents (Elt F)),
    binary main_v47 main_v48 main_v49 (maximumf : (⟨S50000, .f32⟩ : BufTy).Contents (Elt F) → (⟨S50000, .f32⟩ : BufTy).Contents (Elt F) → (⟨S50000, .f32⟩ : BufTy).Contents (Elt F)),
    unary main_v49 main_v50 (broadcastInDim S50000x1 ![0] bcast_S50000_S50000x1_0 : (⟨S50000, .f32⟩ : BufTy).Contents (Elt F) → (⟨S50000x1, .f32⟩ : BufTy).Contents (Elt F)),
    unary main_v50 main_v51 (broadcastInDim S50000x128 ![0, 1] bcast_S50000x1_S50000x128_0_1 : (⟨S50000x1, .f32⟩ : BufTy).Contents (Elt F) → (⟨S50000x128, .f32⟩ : BufTy).Contents (Elt F)),
    binary main_v43 main_v51 main_v52 (Host.divf : (⟨S50000x128, .f32⟩ : BufTy).Contents (Elt F) → (⟨S50000x128, .f32⟩ : BufTy).Contents (Elt F) → (⟨S50000x128, .f32⟩ : BufTy).Contents (Elt F)),
    binary main_v32 main_arg6 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v54 (broadcastInDim S1x128 ![1] bcast_S128_S1x128_1 : (⟨S128, .f32⟩ : BufTy).Contents (Elt F) → (⟨S1x128, .f32⟩ : BufTy).Contents (Elt F)),
    unary main_v54 main_v55 (broadcastInDim S50000x128 ![0, 1] bcast_S1x128_S50000x128_0_1 : (⟨S1x128, .f32⟩ : BufTy).Contents (Elt F) → (⟨S50000x128, .f32⟩ : BufTy).Contents (Elt F)),
    binary main_v53 main_v55 main_v56 (addf : (⟨S50000x128, .f32⟩ : BufTy).Contents (Elt F) → (⟨S50000x128, .f32⟩ : BufTy).Contents (Elt F) → (⟨S50000x128, .f32⟩ : BufTy).Contents (Elt F)),
    binary main_v52 main_v56 main_v57 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v57) (TRef.of (T := ⟨S50000x128, .f32⟩) main_call1_v0) (TRef.of (T := ⟨S50000x128, .f32⟩) main_v58) maximumf ]

/-- The output layer's operations. -/
abbrev opsC : List (HloOp τ sig (Elt F)) :=
  [ binary main_v58 main_arg8 main_v59 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg9 main_v60 (broadcastInDim S1x64 ![1] bcast_S64_S1x64_1 : (⟨S64, .f32⟩ : BufTy).Contents (Elt F) → (⟨S1x64, .f32⟩ : BufTy).Contents (Elt F)),
    unary main_v60 main_v61 (broadcastInDim S50000x64 ![0, 1] bcast_S1x64_S50000x64_0_1 : (⟨S1x64, .f32⟩ : BufTy).Contents (Elt F) → (⟨S50000x64, .f32⟩ : BufTy).Contents (Elt F)),
    binary main_v59 main_v61 main_v62 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0xFF800000#32),
    TRef.binary (TRef.of (T := ⟨S50000x64, .f32⟩) main_v62) (TRef.of (T := ⟨S_, .f32⟩) main_call2_cst) (TRef.of (T := ⟨S50000, .f32⟩) main_call2_v0) (fun x v => Host.reduce FloatOps.maximumf x v reducesTo_S50000x64_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x64, .f32⟩) main_call2_v4) (broadcastInDim S50000x64 ![0, 1] bcast_S50000x1_S50000x64_0_1),
    TRef.binary (TRef.of (T := ⟨S50000x64, .f32⟩) main_v62) (TRef.of (T := ⟨S50000x64, .f32⟩) main_call2_v4) (TRef.of (T := ⟨S50000x64, .f32⟩) main_call2_v5) subf,
    TRef.unary (TRef.of (T := ⟨S50000x64, .f32⟩) main_call2_v5) (TRef.of (T := ⟨S50000x64, .f32⟩) main_call2_v6) Host.exp,
    TRef.nullary (TRef.of (T := ⟨S_, .f32⟩) main_call2_cst_1) (constant S_ .f32 0x00000000#32),
    TRef.binary (TRef.of (T := ⟨S50000x64, .f32⟩) main_call2_v6) (TRef.of (T := ⟨S_, .f32⟩) main_call2_cst_1) (TRef.of (T := ⟨S50000, .f32⟩) main_call2_v7) (fun x v => Host.reduceAdd x v reducesTo_S50000x64_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x64, .f32⟩) main_call2_v10) (broadcastInDim S50000x64 ![0, 1] bcast_S50000x1_S50000x64_0_1),
    TRef.binary (TRef.of (T := ⟨S50000x64, .f32⟩) main_call2_v5) (TRef.of (T := ⟨S50000x64, .f32⟩) main_call2_v10) (TRef.of (T := ⟨S50000x64, .f32⟩) main_v63) subf ]

/-- @main's operations, in order. -/
abbrev ops : List (HloOp τ sig (Elt F)) := opsA ++ (opsB ++ opsC)

/-- The fold over two stretches in a row is the second's fold over the first's. -/
theorem after_append (l1 l2 : List (HloOp τ sig (Elt F))) (V : Valuation τ sig (Elt F)) :
    after (l1 ++ l2) V = after l2 (after l1 V) := by
  induction l1 generalizing V with
  | nil => rfl
  | cons op l ih => simp only [List.cons_append, after_cons, ih]

end Cert.ReferenceIdeal.Hand

end
-- ==== Proof.RefMain.lean ====
/-
  The reference program's @main IS the sequence of its 94 operations; every operation's buffers are TensorCore buffers, and
  none allocates a buffer.
-/
import proofs.«162967_j10161892623037_1_alg».proof.Proof.RefOps

noncomputable section

namespace Cert.ReferenceIdeal.Hand

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub ..⟩
set_option maxRecDepth 8192 in
theorem opsB_sub : (opsB : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub ..⟩
set_option maxRecDepth 8192 in
theorem opsC_sub : (opsC : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsA_sub op h
    · rcases List.mem_append.mp h with h | h
      · exact List.forall_iff_forall_mem.mp opsB_sub op h
      · exact List.forall_iff_forall_mem.mp opsC_sub op h

/-- No operation allocates a buffer. -/
theorem ops_fresh : ∀ op ∈ (ops : List (HloOp τ sig (Elt F))), op.fresh = ∅ := by
  intro op h
  rcases List.mem_append.mp h with h | h
  · (repeat (cases h with | head => rfl | tail _ h => ?_)); exact nomatch h
  · rcases List.mem_append.mp h with h | h
    · (repeat (cases h with | head => rfl | tail _ h => ?_)); exact nomatch h
    · (repeat (cases h with | head => rfl | tail _ h => ?_)); exact nomatch h

end Cert.ReferenceIdeal.Hand

end
-- ==== Proof.RefLayers.lean ====
/-
  What each of the reference's three stretches leaves, from any buffer contents, as a stage function of what it finds: the
  endpoints with the self-loops appended and the first layer's output; the second layer's output; the row-wise
  log-softmax of the output layer's logits.  No operation writes an argument.
-/
import proofs.«162967_j10161892623037_1_alg».proof.Proof.RefOps

noncomputable section

namespace Cert.ReferenceIdeal.Hand

open Cert.ReferenceIdeal Cert.ReferenceIdeal.Gen Cert.ReferenceIdeal.Stages Idealize.ShloMosaic Idealize.ShloMosaic.TcCoe Idealize.SL.Sem Idealize.ShloMosaic.StableHlo

/-- Contents carried to a buffer's type and back are the contents. -/
theorem ofBuf_toBuf {T : BufTy} (x : TRef sig T) (v : T.Contents (Elt Ideal)) : x.ofBuf (x.toBuf v) = v := by
  unfold TRef.ofBuf TRef.toBuf
  simp

/-! ## The first layer -/

theorem afterA_src (V : Valuation τ sig (Elt Ideal)) :
    after (opsA (F := Ideal)) V (Proc.devRef .tc main_v3) = srcIdx (V (Proc.devRef .tc main_arg1)) := by
  after_results_simp <;> rfl
theorem afterA_dst (V : Valuation τ sig (Elt Ideal)) :
    after (opsA (F := Ideal)) V (Proc.devRef .tc main_v6) = dstIdx (V (Proc.devRef .tc main_arg1)) := by
  after_results_simp <;> rfl
/-- The first layer's output. -/
theorem afterA_layer (V : Valuation τ sig (Elt Ideal)) :
    after (opsA (F := Ideal)) V (Proc.devRef .tc main_v32)
      = layer (V (Proc.devRef .tc main_arg0)) (srcIdx (V (Proc.devRef .tc main_arg1))) (dstIdx (V (Proc.devRef .tc main_arg1)))
          (degree (dstIdx (V (Proc.devRef .tc main_arg1)))) (V (Proc.devRef .tc main_arg2)) (V (Proc.devRef .tc main_arg3)) (V (Proc.devRef .tc main_arg4)) := by
  after_results_simp
  simp only [ofBuf_toBuf]
  rfl
/-- No operation of this stretch writes an argument. -/
theorem afterA_arg (V : Valuation τ sig (Elt Ideal)) (r : Ref sig .tc)
    (hr : r = main_arg0 ∨ r = main_arg1 ∨ r = main_arg2 ∨ r = main_arg3 ∨ r = main_arg4 ∨ r = main_arg5 ∨ r = main_arg6 ∨ r = main_arg7 ∨ r = main_arg8 ∨ r = main_arg9) :
    after (opsA (F := Ideal)) V (Proc.devRef .tc r) = V (Proc.devRef .tc r) := by
  rcases hr with rfl | rfl | rfl | rfl | rfl | rfl | rfl | rfl | rfl | rfl <;> (after_results_simp <;> rfl)

/-! ## The second layer -/

/-- The second layer's output, from the first's and the endpoints the first stretch left. -/
theorem afterB_layer (V : Valuation τ sig (Elt Ideal)) :
    after (opsB (F := Ideal)) V (Proc.devRef .tc main_v58)
      = layer (V (Proc.devRef .tc main_v32)) (V (Proc.devRef .tc main_v3)) (V (Proc.devRef .tc main_v6))
          (degree (V (Proc.devRef .tc main_v6))) (V (Proc.devRef .tc main_arg5)) (V (Proc.devRef .tc main_arg6)) (V (Proc.devRef .tc main_arg7)) := by
  after_results_simp
  simp only [ofBuf_toBuf]
  rfl
/-- No operation of this stretch writes an argument. -/
theorem afterB_arg (V : Valuation τ sig (Elt Ideal)) (r : Ref sig .tc)
    (hr : r = main_arg0 ∨ r = main_arg1 ∨ r = main_arg2 ∨ r = main_arg3 ∨ r = main_arg4 ∨ r = main_arg5 ∨ r = main_arg6 ∨ r = main_arg7 ∨ r = main_arg8 ∨ r = main_arg9) :
    after (opsB (F := Ideal)) V (Proc.devRef .tc r) = V (Proc.devRef .tc r) := by
  rcases hr with rfl | rfl | rfl | rfl | rfl | rfl | rfl | rfl | rfl | rfl <;> (after_results_simp <;> rfl)

/-! ## The output layer -/

/-- The result: the row-wise log-softmax of the output layer's logits. -/
theorem afterC_result (V : Valuation τ sig (Elt Ideal)) :
    after (opsC (F := Ideal)) V (Proc.devRef .tc main_v63)
      = logSoftmaxRows (logits (V (Proc.devRef .tc main_v58)) (V (Proc.devRef .tc main_arg8)) (V (Proc.devRef .tc main_arg9))) := by
  after_results_simp
  simp only [ofBuf_toBuf]
  unfold logSoftmaxRows shifted rowMax logits
  rfl
/-- No operation of this stretch writes an argument. -/
theorem afterC_arg (V : Valuation τ sig (Elt Ideal)) (r : Ref sig .tc)
    (hr : r = main_arg0 ∨ r = main_arg1 ∨ r = main_arg2 ∨ r = main_arg3 ∨ r = main_arg4 ∨ r = main_arg5 ∨ r = main_arg6 ∨ r = main_arg7 ∨ r = main_arg8 ∨ r = main_arg9) :
    after (opsC (F := Ideal)) V (Proc.devRef .tc r) = V (Proc.devRef .tc r) := by
  rcases hr with rfl | rfl | rfl | rfl | rfl | rfl | rfl | rfl | rfl | rfl <;> (after_results_simp <;> rfl)

end Cert.ReferenceIdeal.Hand

end
-- ==== Proof.RefRun.lean ====
/-
  The reference program's run, read back: every weakly fair execution terminates with each buffer at the operations'
  results folded over the launch contents, so the result buffer ends at the network (Proof/Network.lean) of the ten
  arguments, and every argument as launched.
-/
import proofs.«162967_j10161892623037_1_alg».proof.Proof.RefMain
import proofs.«162967_j10161892623037_1_alg».proof.Proof.RefLayers

noncomputable section

namespace Cert.ReferenceIdeal.Hand

open Cert.ReferenceIdeal Cert.ReferenceIdeal.Gen Cert.ReferenceIdeal.Stages Idealize.ShloMosaic Idealize.ShloMosaic.TcCoe Idealize.SL.Sem Idealize.ShloMosaic.StableHlo

/-! ## The whole program -/

/-- No operation of the program writes an argument. -/
theorem after_arg (V : Valuation τ sig (Elt Ideal)) (r : Ref sig .tc)
    (hr : r = main_arg0 ∨ r = main_arg1 ∨ r = main_arg2 ∨ r = main_arg3 ∨ r = main_arg4 ∨ r = main_arg5 ∨ r = main_arg6 ∨ r = main_arg7 ∨ r = main_arg8 ∨ r = main_arg9) :
    after (ops (F := Ideal)) V (Proc.devRef .tc r) = V (Proc.devRef .tc r) := by
  rw [after_append, after_append, afterC_arg _ r hr, afterB_arg _ r hr, afterA_arg _ r hr]

/-- The result buffer ends at the network of the argument buffers' contents. -/
theorem after_result (V : Valuation τ sig (Elt Ideal)) :
    after (ops (F := Ideal)) V (Proc.devRef .tc main_v63)
      = network (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) (V (Proc.devRef .tc main_arg9)) := by
  rw [after_append, after_append, afterC_result, afterB_layer,
    afterB_arg _ main_arg8 (by simp), afterB_arg _ main_arg9 (by simp),
    afterA_layer, afterA_src, afterA_dst,
    afterA_arg _ main_arg5 (by simp), afterA_arg _ main_arg6 (by simp), afterA_arg _ main_arg7 (by simp),
    afterA_arg _ main_arg8 (by simp), afterA_arg _ main_arg9 (by simp)]
  rfl

/-- On every device, from any memory with zero counters: every weakly fair execution of @main terminates with the
    result at the network of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63)
        = network (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v63).trans (after_result _),
      (h c main_arg0).trans (after_arg _ main_arg0 (by simp)),
      (h c main_arg1).trans (after_arg _ main_arg1 (by simp)),
      (h c main_arg2).trans (after_arg _ main_arg2 (by simp)),
      (h c main_arg3).trans (after_arg _ main_arg3 (by simp)),
      (h c main_arg4).trans (after_arg _ main_arg4 (by simp)),
      (h c main_arg5).trans (after_arg _ main_arg5 (by simp)),
      (h c main_arg6).trans (after_arg _ main_arg6 (by simp)),
      (h c main_arg7).trans (after_arg _ main_arg7 (by simp)),
      (h c main_arg8).trans (after_arg _ main_arg8 (by simp)),
      (h c main_arg9).trans (after_arg _ main_arg9 (by simp))⟩)
    (run_seq scopedRefs_eq scopedSems_eq defs main (fun _ => ops (F := Ideal)) main_eq (fun _ => ops_sub) m ρ (fun _ => ops_fresh))

end Cert.ReferenceIdeal.Hand

end
-- ==== Proof.lean ====
/-
  The certificate of a two-layer graph convolution network with a log-softmax output layer: the kernel program (five
  kernel launches for the dense work — x·w and x·w' + b per layer, the clamped sum of a layer's two branches, the output
  layer's logits and their row-wise log-softmax — among host operations for the irregular work: the gather by source
  node, the sum by destination node, the division by the clamped in-degree) against the plain reference.

  At the ideal values both programs compute ONE function of the ten arguments, `Stages.network`, operation by operation:
  a change of float format is the identity, a matrix product into a zero accumulator is the plain sum of products, and
  each launch's 25 row blocks tile its output array, every output row depending on its own input row only.  So the
  equality needs no algebra on the extended reals and never uses the inputs' finiteness.  The three frames are the
  generated frame proofs of the two kernel programs and the reference's run with its result dropped; the idealization
  rewrote no operation.
-/
import proofs.«162967_j10161892623037_1_alg».proof.Defs
import proofs.«162967_j10161892623037_1_alg».proof.Proof.Gen.Kernel
import proofs.«162967_j10161892623037_1_alg».proof.Proof.Gen.Kernel.Skeleton
import proofs.«162967_j10161892623037_1_alg».proof.Proof.Gen.Kernel.Launch
import proofs.«162967_j10161892623037_1_alg».proof.Proof.Gen.Kernel.Points
import proofs.«162967_j10161892623037_1_alg».proof.Proof.Gen.Kernel.Frame
import proofs.«162967_j10161892623037_1_alg».proof.Proof.Gen.KernelIdeal
import proofs.«162967_j10161892623037_1_alg».proof.Proof.Gen.KernelIdeal.Skeleton
import proofs.«162967_j10161892623037_1_alg».proof.Proof.Gen.KernelIdeal.Launch
import proofs.«162967_j10161892623037_1_alg».proof.Proof.Gen.KernelIdeal.Points
import proofs.«162967_j10161892623037_1_alg».proof.Proof.Gen.KernelIdeal.Frame
import proofs.«162967_j10161892623037_1_alg».proof.Proof.Gen.ReferenceIdeal
import proofs.«162967_j10161892623037_1_alg».proof.Proof.Gen.Pre_finite_inputs
import proofs.«162967_j10161892623037_1_alg».proof.Proof.KernelValue
import proofs.«162967_j10161892623037_1_alg».proof.Proof.RefRun
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Hand.run m ρ)

/-- The idealization rewrote no operation. -/
theorem preserves : Cert.preserves_Kernel_KernelIdeal := trivial

/-- From memories agreeing on the arguments both idealized programs end with the network of the arguments in their
    result buffer. -/
theorem algebraic : Cert.algebraic_KernelIdeal_ReferenceIdeal := by
  intro m ρ m' ρ' _ hagree
  refine ⟨fun c => Cert.ReferenceIdeal.Stages.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
